-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x256 .f32) (main_arg3 : FVec F S256 .f32) (main_arg4 : FVec F S256x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x256 : Shape := ⟨2, ![1, 256]⟩
abbrev S50000x256 : Shape := ⟨2, ![50000, 256]⟩
abbrev S5000x128 : Shape := ⟨2, ![5000, 128]⟩
abbrev S5000x1 : Shape := ⟨2, ![5000, 1]⟩
abbrev S5000x256 : Shape := ⟨2, ![5000, 256]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩

abbrev nBuf : Space → Nat
  | .hbm => 80
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S800000, .f32⟩
  | .hbm, ⟨41, _⟩ => ⟨S800000x1, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S800000x128, .f32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x1, .f32⟩
  | .hbm, ⟨58, _⟩ => ⟨S1x256, .f32⟩
  | .hbm, ⟨59, _⟩ => ⟨S50000x256, .f32⟩
  | .hbm, ⟨60, _⟩ => ⟨S50000x64, .f32⟩
  | .hbm, ⟨61, _⟩ => ⟨S800000x1, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x64, .f32⟩
  | .hbm, ⟨71, _⟩ => ⟨S800000x64, .f32⟩
  | .hbm, ⟨72, _⟩ => ⟨S800000x64, .f32⟩
  | .hbm, ⟨73, _⟩ => ⟨S_, .f32⟩
  | .hbm, ⟨74, _⟩ => ⟨S50000x64, .f32⟩
  | .hbm, ⟨75, _⟩ => ⟨S800000x1, .i32⟩
  | .hbm, ⟨76, _⟩ => ⟨S50000x64, .f32⟩
  | .hbm, ⟨77, _⟩ => ⟨S50000x1, .f32⟩
  | .hbm, ⟨78, _⟩ => ⟨S1x64, .f32⟩
  | .hbm, ⟨79, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x256, .f32⟩
  | .local _ .vmem, ⟨7, _⟩ => ⟨S1x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S256x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x1, .f32⟩
  | .local _ .vmem, ⟨20, _⟩ => ⟨S5000x1, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_9 : Ref sig .tc := ⟨.hbm, 62, rfl⟩
abbrev main_v45 : Ref sig .tc := ⟨.hbm, 63, rfl⟩
abbrev main_v46 : Ref sig .tc := ⟨.hbm, 64, rfl⟩
abbrev main_c_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S50000_S50000x1 : S50000.ShapeCasts S50000x1
  shapeCasts_S256_S1x256 : S256.ShapeCasts S1x256
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  dot_S5000x256_S256x64_S5000x64_1_0_0_1_n_n_wf : DotDims.WF S5000x256 S256x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S50000x256.size a
  hwx0_5 : ∀ i : grid0.Coords, EltTy.bits .f32 = 32 ∨ (Rect.block (s := S50000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v40) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v42) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S50000x256 : Shape := ⟨2, ![50000, 256]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x256, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000, .f32⟩
  | .hbm, ⟨41, _⟩ => ⟨S800000, .f32⟩
  | .hbm, ⟨42, _⟩ => ⟨S800000x1, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x256, .f32⟩
  | .hbm, ⟨52, _⟩ => ⟨S800000x256, .f32⟩
  | .hbm, ⟨53, _⟩ => ⟨S800000x256, .f32⟩
  | .hbm, ⟨54, _⟩ => ⟨S_, .f32⟩
  | .hbm, ⟨55, _⟩ => ⟨S50000x256, .f32⟩
  | .hbm, ⟨56, _⟩ => ⟨S800000x1, .i32⟩
  | .hbm, ⟨57, _⟩ => ⟨S50000x256, .f32⟩
  | .hbm, ⟨58, _⟩ => ⟨S50000, .f32⟩
  | .hbm, ⟨59, _⟩ => ⟨S50000x1, .f32⟩
  | .hbm, ⟨60, _⟩ => ⟨S50000x256, .f32⟩
  | .hbm, ⟨61, _⟩ => ⟨S50000x256, .f32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x64, .f32⟩
  | .hbm, ⟨70, _⟩ => ⟨S_, .f32⟩
  | .hbm, ⟨71, _⟩ => ⟨S800000, .f32⟩
  | .hbm, ⟨72, _⟩ => ⟨S_, .f32⟩
  | .hbm, ⟨73, _⟩ => ⟨S50000, .f32⟩
  | .hbm, ⟨74, _⟩ => ⟨S800000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000, .f32⟩
  | .hbm, ⟨91, _⟩ => ⟨S_, .i32⟩
  | .hbm, ⟨92, _⟩ => ⟨S800000, .i32⟩
  | .hbm, ⟨93, _⟩ => ⟨S800000, .i1⟩
  | .hbm, ⟨94, _⟩ => ⟨S_, .i32⟩
  | .hbm, ⟨95, _⟩ => ⟨S800000, .i32⟩
  | .hbm, ⟨96, _⟩ => ⟨S800000, .i32⟩
  | .hbm, ⟨97, _⟩ => ⟨S800000, .i32⟩
  | .hbm, ⟨98, _⟩ => ⟨S800000x1, .i32⟩
  | .hbm, ⟨99, _⟩ => ⟨S800000, .f32⟩
  | .hbm, ⟨100, _⟩ => ⟨S800000, .f32⟩
  | .hbm, ⟨101, _⟩ => ⟨S800000x1, .f32⟩
  | .hbm, ⟨102, _⟩ => ⟨S_, .i32⟩
  | .hbm, ⟨103, _⟩ => ⟨S800000, .i32⟩
  | .hbm, ⟨104, _⟩ => ⟨S800000, .i1⟩
  | .hbm, ⟨105, _⟩ => ⟨S_, .i32⟩
  | .hbm, ⟨106, _⟩ => ⟨S800000, .i32⟩
  | .hbm, ⟨107, _⟩ => ⟨S800000, .i32⟩
  | .hbm, ⟨108, _⟩ => ⟨S800000, .i32⟩
  | .hbm, ⟨109, _⟩ => ⟨S800000x1, .i32⟩
  | .hbm, ⟨110, _⟩ => ⟨S800000x64, .f32⟩
  | .hbm, ⟨111, _⟩ => ⟨S800000x64, .f32⟩
  | .hbm, ⟨112, _⟩ => ⟨S800000x64, .f32⟩
  | .hbm, ⟨113, _⟩ => ⟨S_, .f32⟩
  | .hbm, ⟨114, _⟩ => ⟨S50000x64, .f32⟩
  | .hbm, ⟨115, _⟩ => ⟨S800000x1, .i32⟩
  | .hbm, ⟨116, _⟩ => ⟨S50000x64, .f32⟩
  | .hbm, ⟨117, _⟩ => ⟨S50000, .f32⟩
  | .hbm, ⟨118, _⟩ => ⟨S50000x1, .f32⟩
  | .hbm, ⟨119, _⟩ => ⟨S50000x64, .f32⟩
  | .hbm, ⟨120, _⟩ => ⟨S50000x64, .f32⟩
  | .hbm, ⟨121, _⟩ => ⟨S50000x64, .f32⟩
  | .hbm, ⟨122, _⟩ => ⟨S1x64, .f32⟩
  | .hbm, ⟨123, _⟩ => ⟨S50000x64, .f32⟩
  | .hbm, ⟨124, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call0_cst : Ref sig .tc := ⟨.hbm, 66, rfl⟩
abbrev main_call0_v0 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_c_13 : Ref sig .tc := ⟨.hbm, 82, rfl⟩
abbrev main_v59 : Ref sig .tc := ⟨.hbm, 83, rfl⟩
abbrev main_v60 : Ref sig .tc := ⟨.hbm, 84, rfl⟩
abbrev main_c_14 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_15 : Ref sig .tc := ⟨.hbm, 91, rfl⟩
abbrev main_v66 : Ref sig .tc := ⟨.hbm, 92, rfl⟩
abbrev main_v67 : Ref sig .tc := ⟨.hbm, 93, rfl⟩
abbrev main_c_16 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_17 : Ref sig .tc := ⟨.hbm, 102, rfl⟩
abbrev main_v75 : Ref sig .tc := ⟨.hbm, 103, rfl⟩
abbrev main_v76 : Ref sig .tc := ⟨.hbm, 104, rfl⟩
abbrev main_c_18 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_19 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x256_S50000x256_1_0_0_1_n_n_wf : DotDims.WF S50000x128 S128x256 S50000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x64_S50000x64_1_0_0_1_n_n_wf : DotDims.WF S50000x256 S256x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.InputsReal.lean ====
/-
  What the precondition says of the float inputs, read at the extended reals.

  The precondition is the conjunction, over the five float arrays, of "every element x has |x| < +∞",
  each taken as an all-reduction by `and` of the elementwise comparison against the pattern of +∞.
  At the ideal values a float is an extended real, |x| is max x (-x), and the pattern 0x7F800000 is ⊤.
  So max x (-x) < ⊤ excludes x = ⊤ (then max x (-x) = ⊤) and x = ⊥ (then -x = ⊤), and what is left is a
  real number. This file proves: if the precondition holds, every element of each float input is
  (the image of) a real number.
-/
import proofs.«107366_j5566277616086_2_alg».proof.Pre_finite_inputs
import proofs.«107366_j5566277616086_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

namespace Cert.InputsReal

open Idealize.ShloMosaic Cert.Pre_finite_inputs

/-- One value: an extended real whose absolute value max x (-x) is strictly below the value of the
    pattern 0x7F800000 (which is ⊤) is a real number: ⊤ and ⊥ both have absolute value ⊤. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  induction x using EReal.rec with
  | bot => simp [Ideal.cmp] at h
  | coe r => exact ⟨r, rfl⟩
  | top => simp [Ideal.cmp] at h

/-- The rank-0 shape has one index. -/
instance : Subsingleton S_.Idx := ⟨fun a b => funext fun d => d.elim0⟩

/-- One array: if the all-reduction by `and` of the comparison |a i| < +∞ came out 1, every a i is real. -/
theorem real_of_all {s : Shape} {axes : List (Fin s.rank)} (a : FVec Ideal s .f32)
    (hb : S_.BroadcastsInDim s (![] : Fin 0 → Fin s.rank)) (hr : s.ReducesTo axes S_) (hu : 0 < S_.numel)
    (init : IVec S_ 1)
    (h : Host.reduce IntOp.andi
          (cmpf .olt (Host.absf a) (broadcastInDim s ![] hb (constant S_ .f32 0x7F800000#32))) init hr hu
          ValueIdx.ix0 = 1#1) :
    ∀ i, ∃ r : ℝ, a i = (r : EReal) := by
  intro i
  have hi := Host.reduce_andi_all _ init hr hu ValueIdx.ix0 h i
  exact real_of_abs_lt_inf (a i) hi

variable [hF : Cert.Pre_finite_inputs.Facts]

/-- The precondition gives: every element of each of the five float inputs is a real number. -/
theorem real_of_pre (a0 : FVec Ideal S50000x128 .f32) (a1 : IVec S2x800000 32)
    (a2 : FVec Ideal S128x256 .f32) (a3 : FVec Ideal S256 .f32)
    (a4 : FVec Ideal S256x64 .f32) (a5 : FVec Ideal S64 .f32)
    (h : Cert.Pre_finite_inputs.fn (F := Ideal) a0 a1 a2 a3 a4 a5 = fun _ => 1#1) :
    (∀ i, ∃ r : ℝ, a0 i = (r : EReal)) ∧ (∀ i, ∃ r : ℝ, a2 i = (r : EReal)) ∧
    (∀ i, ∃ r : ℝ, a3 i = (r : EReal)) ∧ (∀ i, ∃ r : ℝ, a4 i = (r : EReal)) ∧
    (∀ i, ∃ r : ℝ, a5 i = (r : EReal)) := by
  have h0 := congrFun h ValueIdx.ix0
  dsimp only [Cert.Pre_finite_inputs.fn, Cert.Pre_finite_inputs.fn_part1] at h0
  change IntOp.andi (IntOp.andi (IntOp.andi (IntOp.andi _ _) _) _) _ = 1#1 at h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨real_of_all a0 _ _ _ _ e0, real_of_all a2 _ _ _ _ e2, real_of_all a3 _ _ _ _ e3,
    real_of_all a4 _ _ _ _ e4, real_of_all a5 _ _ _ _ e5⟩

end Cert.InputsReal
-- ==== Proof.Spec.lean ====
/-
  A two-layer graph convolution, entry by entry, on the extended reals: the three whole-array functions the three
  kernel launches compute of the arrays they find.

  With N = 50000 nodes: the first launch takes node features x [N, 128], the neighbour aggregate agg [N, 128], the
  inverse square roots of the degrees as a column d [N, 1], a weight matrix W [128, 256] and a bias row b [1, 256], and
  yields max (Σ_l (agg[j, l] + (d[j] · d[j]) · x[j, l]) · W[l, k] + b[k], 0); the second is the plain product
  Σ_k a[j, k] · W[k, f]; the third combines agg[j, f] + (d[j] · d[j]) · h[j, f] + b[f].
-/
import Idealize.ShloMosaic.PureOps.Ideal
import Idealize.ShloMosaic.Lib.ValueIdx

noncomputable section

open scoped BigOperators

namespace Cert.Gcn

open Idealize.ShloMosaic Idealize.ShloMosaic.ValueIdx

/-- An array of extended reals over a rank-2 index set. -/
abbrev Arr2 (n0 n1 : Nat) := (⟨2, ![n0, n1]⟩ : Shape).Idx → EReal

/-- Layer 1 at node j, output feature k. -/
def layer1At (x agg : Arr2 50000 128) (d : Arr2 50000 1) (W : Arr2 128 256) (b : Arr2 1 256) (j : Fin 50000) (k : Fin 256) : EReal :=
  max ((∑ l : Fin 128, (agg (ix2 j l) + d (ix2 j 0) * d (ix2 j 0) * x (ix2 j l)) * W (ix2 l k)) + b (ix2 0 k))
    (Ideal.ofBits .f32 0x00000000#32)

/-- Layer 1 as a whole array. -/
def layer1 (x agg : Arr2 50000 128) (d : Arr2 50000 1) (W : Arr2 128 256) (b : Arr2 1 256) : Arr2 50000 256 :=
  fun i => layer1At x agg d W b (i 0) (i 1)

/-- The plain product at (j, f). -/
def productAt (a : Arr2 50000 256) (W : Arr2 256 64) (j : Fin 50000) (f : Fin 64) : EReal :=
  ∑ k : Fin 256, a (ix2 j k) * W (ix2 k f)

/-- The plain product as a whole array. -/
def product (a : Arr2 50000 256) (W : Arr2 256 64) : Arr2 50000 64 := fun i => productAt a W (i 0) (i 1)

/-- Layer 2's combination at (j, f). -/
def combineAt (h agg : Arr2 50000 64) (d : Arr2 50000 1) (b : Arr2 1 64) (j : Fin 50000) (f : Fin 64) : EReal :=
  agg (ix2 j f) + d (ix2 j 0) * d (ix2 j 0) * h (ix2 j f) + b (ix2 0 f)

/-- Layer 2's combination as a whole array. -/
def combine (h agg : Arr2 50000 64) (d : Arr2 50000 1) (b : Arr2 1 64) : Arr2 50000 64 :=
  fun i => combineAt h agg d b (i 0) (i 1)

theorem layer1_apply (x agg : Arr2 50000 128) (d : Arr2 50000 1) (W : Arr2 128 256) (b : Arr2 1 256) (j : Fin 50000) (k : Fin 256) :
    layer1 x agg d W b (ix2 j k) = layer1At x agg d W b j k := rfl

theorem product_apply (a : Arr2 50000 256) (W : Arr2 256 64) (j : Fin 50000) (f : Fin 64) :
    product a W (ix2 j f) = productAt a W j f := rfl

theorem combine_apply (h agg : Arr2 50000 64) (d : Arr2 50000 1) (b : Arr2 1 64) (j : Fin 50000) (f : Fin 64) :
    combine h agg d b (ix2 j f) = combineAt h agg d b j f := rfl

end Cert.Gcn

end
-- ==== Proof.LibSegmentSum.lean ====
import Idealize.ShloMosaic.PureOps.Ideal.Laws
import Idealize.ShloMosaic.Lib.ValueIdx

/-!
# Segment sums: scatter-add and gather of rows read at an index, and the linear law

General facts about a "segment sum" (a scatter-add of rows into a table by an integer row index)
and the matching row gather, each read at one index, together with the linear law on the extended
reals that lets a nonnegative finite per-row weight be moved across a product with an arbitrary
vector.
-/

noncomputable section

open scoped BigOperators

namespace Cert.SegmentSum

open Idealize.ShloMosaic Idealize.ShloMosaic.ValueIdx

/-! ## The linear law on the extended reals -/

/-- A finite sum of extended reals times a nonnegative finite factor distributes:
`(∑ k ∈ T, a k) * n = ∑ k ∈ T, a k * n` when `0 ≤ n` and `n ≠ ⊤`
(no sign or finiteness condition on the summands). -/
theorem sum_mul_of_nonneg_of_ne_top {K : Type*} [DecidableEq K] (T : Finset K) (a : K → EReal)
    {n : EReal} (hn : 0 ≤ n) (hn' : n ≠ ⊤) :
    (∑ k ∈ T, a k) * n = ∑ k ∈ T, a k * n := by
  induction T using Finset.induction_on with
  | empty => simp
  | insert k T hk ih =>
    rw [Finset.sum_insert hk, Finset.sum_insert hk,
      EReal.right_distrib_of_nonneg_of_ne_top hn hn', ih]

/-- A finite sum of nonnegative extended reals times an arbitrary factor distributes:
`(∑ e ∈ S, b e) * w = ∑ e ∈ S, b e * w` when every `b e ≥ 0`
(`w` may have any sign and may be infinite). -/
theorem sum_mul_of_nonneg {E : Type*} [DecidableEq E] (S : Finset E) (b : E → EReal)
    (hb : ∀ e ∈ S, 0 ≤ b e) (w : EReal) :
    (∑ e ∈ S, b e) * w = ∑ e ∈ S, b e * w := by
  induction S using Finset.induction_on with
  | empty => simp
  | insert e S he ih =>
    have hS : ∀ e' ∈ S, 0 ≤ b e' := fun e' h' => hb e' (Finset.mem_insert_of_mem h')
    rw [Finset.sum_insert he, Finset.sum_insert he,
      EReal.right_distrib_of_nonneg (hb e (Finset.mem_insert_self e S)) (Finset.sum_nonneg hS),
      ih hS]

/-- The linear law on the extended reals: weighting each row `e` of `h` by a nonnegative
finite factor `n e` commutes with the product against an arbitrary (any sign, possibly
infinite) vector `w`, summed over any set `S` of rows:
`∑ e ∈ S, (∑ k, h e k * w k) * n e = ∑ k, (∑ e ∈ S, h e k * n e) * w k`,
for `h ≥ 0`, `0 ≤ n e ≠ ⊤`. -/
theorem sum_mul_weight_comm {E K : Type*} [DecidableEq E] [Fintype K] [DecidableEq K]
    (S : Finset E) (h : E → K → EReal) (hh : ∀ e k, 0 ≤ h e k)
    (n : E → EReal) (hn : ∀ e, 0 ≤ n e) (hn' : ∀ e, n e ≠ ⊤) (w : K → EReal) :
    ∑ e ∈ S, (∑ k, h e k * w k) * n e = ∑ k, (∑ e ∈ S, h e k * n e) * w k := by
  have h1 : ∀ e ∈ S, (∑ k, h e k * w k) * n e = ∑ k, (h e k * n e) * w k := by
    intro e _
    rw [sum_mul_of_nonneg_of_ne_top Finset.univ _ (hn e) (hn' e)]
    refine Finset.sum_congr rfl fun k _ => ?_
    rw [mul_assoc, mul_comm (w k) (n e), ← mul_assoc]
  rw [Finset.sum_congr rfl h1, Finset.sum_comm]
  refine Finset.sum_congr rfl fun k _ => ?_
  rw [sum_mul_of_nonneg S (fun e => h e k * n e) (fun e _ => EReal.mul_nonneg (hh e k) (hn e)) (w k)]

/-! ## Gather of rows read at an index -/

section Gather
variable {α : Type}

/-- The dimension numbers of a row gather `x[idx]` of a table `[N, D]` at start indices `[E, 1]`, result `[E, D]`:
offset axis `1`, collapsed axis `0`, start index map `[0]`, index vector axis `1`, slice sizes `[1, D]`. -/
abbrev rowsDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- A row gather read at `(e, c)`: the table at row `idx[e, 0]`, read signed and clamped into `[0, N − 1]`,
column `c`. -/
theorem gather_rowsDims_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowsDims N E D wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowsDims N E D wf).start (ix2 e c) idx 0 + (rowsDims N E D wf).batchCoord (ix2 e c) 0
      + (rowsDims N E D wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E D wf).startIndexMap from List.mem_singleton.mpr rfl)]
    have hsi : (rowsDims N E D wf).siIdx (ix2 e c) ⟨List.idxOf (0 : Fin 2) (rowsDims N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N E D wf).start (ix2 e c) idx 1 + (rowsDims N E D wf).batchCoord (ix2 e c) 1
      + (rowsDims N E D wf).offCoord (ix2 e c) 1 = c.val
    rw [GatherDims.batchCoord_eq_zero _ _ _ List.not_mem_nil]
    have hs : (rowsDims N E D wf).start (ix2 e c) idx 1 = 0 := by
      unfold GatherDims.start
      rw [dif_neg (show (1 : Fin 2) ∉ (rowsDims N E D wf).startIndexMap from (by decide : (1 : Fin 2) ∉ ([0] : List (Fin 2))))]
    rw [hs]
    simp only [Nat.add_zero, Nat.zero_add]
    unfold GatherDims.offCoord
    rw [dif_pos ((GatherDims.mem_sKept _ _).mpr ⟨(by decide : (1 : Fin 2) ∉ ([0] : List (Fin 2))), List.not_mem_nil⟩)]
    rfl

/-- GATHER OF ROWS READ AT AN INDEX, for any record with the row gather's dimension numbers: element `(e, c)` of
`x[idx]` is the table at row `idx[e, 0]`, read signed and clamped into `[0, N − 1]`, column `c`. -/
theorem gather_rows_apply {N E D w : Nat} (hN : 0 < N)
    (g : GatherDims ⟨2, ![N, D]⟩ ⟨2, ![E, 1]⟩ ⟨2, ![E, D]⟩)
    (ho : g.offsetDims = [1]) (hc : g.collapsedSliceDims = [0]) (hob : g.operandBatchingDims = [])
    (hsb : g.startIndicesBatchingDims = []) (hm : g.startIndexMap = [0]) (hv : g.indexVectorDim = 1)
    (hss : g.sliceSizes = ![1, D])
    (x : (⟨2, ![N, D]⟩ : Shape).Idx → α) (idx : IVec ⟨2, ![E, 1]⟩ w) (e : Fin E) (c : Fin D) :
    Host.gather g x idx (ix2 e c)
      = x (ix2 ⟨min (idx (ix2 e 0)).toInt.toNat (N - 1), by omega⟩ c) := by
  obtain ⟨od, cd, ob, sb, sm, iv, ss, wf⟩ := g
  dsimp only at ho hc hob hsb hm hv hss
  subst ho hc hob hsb hm hv hss
  exact gather_rowsDims_apply hN wf x idx e c

/-- The dimension numbers of a gather `x[idx]` of a flat table `[N]` at start indices `[E, 1]`, result `[E]`:
no offset axis, collapsed axis `0`, start index map `[0]`, index vector axis `1`, slice sizes `[1]`. -/
abbrev tableDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A flat-table gather read at `e`: the table at `idx[e, 0]`, read signed and clamped into `[0, N − 1]`. -/
theorem gather_tableDims_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (tableDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (tableDims N E wf).start (ix1 e) idx 0 + (tableDims N E wf).batchCoord (ix1 e) 0
    + (tableDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (tableDims N E wf).startIndexMap from List.mem_singleton.mpr rfl)]
  have hsi : (tableDims N E wf).siIdx (ix1 e) ⟨List.idxOf (0 : Fin 1) (tableDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- GATHER FROM A FLAT TABLE READ AT AN INDEX, for any record with those dimension numbers: element `e` of `x[idx]`
is the table at `idx[e, 0]`, read signed and clamped into `[0, N − 1]`. -/
theorem gather_table_apply {N E w : Nat} (hN : 0 < N)
    (g : GatherDims ⟨1, ![N]⟩ ⟨2, ![E, 1]⟩ ⟨1, ![E]⟩)
    (ho : g.offsetDims = []) (hc : g.collapsedSliceDims = [0]) (hob : g.operandBatchingDims = [])
    (hsb : g.startIndicesBatchingDims = []) (hm : g.startIndexMap = [0]) (hv : g.indexVectorDim = 1)
    (hss : g.sliceSizes = ![1])
    (x : (⟨1, ![N]⟩ : Shape).Idx → α) (idx : IVec ⟨2, ![E, 1]⟩ w) (e : Fin E) :
    Host.gather g x idx (ix1 e)
      = x (ix1 ⟨min (idx (ix2 e 0)).toInt.toNat (N - 1), by omega⟩) := by
  obtain ⟨od, cd, ob, sb, sm, iv, ss, wf⟩ := g
  dsimp only at ho hc hob hsb hm hv hss
  subst ho hc hob hsb hm hv hss
  exact gather_tableDims_apply hN wf x idx e

end Gather

/-! ## Scatter-add of rows read at an index -/

section Scatter

/-- The row a scatter index word addresses in a table of `N` rows: the word read as a signed integer when that is in
`[0, N)`, no row otherwise (an update whose index leaves the table is dropped). -/
def rowTarget (N : Nat) (w : BitVec 32) : Option (Fin N) :=
  if h : 0 ≤ w.toInt ∧ w.toInt < N then some ⟨w.toInt.toNat, by omega⟩ else none

/-- The dimension numbers of a row scatter into a table `[N, D]` at scatter indices `[E, 1]` with updates `[E, D]`:
update window axis `1`, inserted window axis `0`, scatter-dims-to-operand-dims `[0]`, index vector axis `1`. -/
abbrev rowsScatter (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D : Nat} (wf : ScatterDims.WF ⟨2, ![N, D]⟩ ⟨2, ![E, 1]⟩ ⟨2, ![E, D]⟩ [1] [0] [0] 1)
  (idx : IVec ⟨2, ![E, 1]⟩ 32) (e : Fin E) (c : Fin D)

/-- On the row axis the window of update `(e, c)` starts at the index word `idx[e, 0]` read signed. -/
theorem rowsScatter_start0 :
    (rowsScatter N E D wf).start (ix2 e c) idx 0 = (idx (ix2 e 0)).toInt := by
  unfold ScatterDims.start
  rw [dif_pos (show (0 : Fin 2) ∈ (rowsScatter N E D wf).scatterDimsToOperandDims from List.mem_singleton.mpr rfl)]
  have hsi : (rowsScatter N E D wf).siIdx (ix2 e c)
      ⟨List.idxOf (0 : Fin 2) (rowsScatter N E D wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window starts at `0`. -/
theorem rowsScatter_start1 : (rowsScatter N E D wf).start (ix2 e c) idx 1 = 0 := by
  unfold ScatterDims.start
  rw [dif_neg (show (1 : Fin 2) ∉ (rowsScatter N E D wf).scatterDimsToOperandDims from
    (by decide : (1 : Fin 2) ∉ ([0] : List (Fin 2))))]

/-- The row axis is inserted: no window coordinate there. -/
theorem rowsScatter_window0 : (rowsScatter N E D wf).window (ix2 e c) 0 = 0 := by
  unfold ScatterDims.window
  rw [dif_neg (show (0 : Fin 2) ∉ (rowsScatter N E D wf).sKept from
    (by decide : (0 : Fin 2) ∉ (List.finRange 2).filter (· ∉ ([0] : List (Fin 2)))))]

/-- The window coordinate on the column axis is the update's column. -/
theorem rowsScatter_window1 : (rowsScatter N E D wf).window (ix2 e c) 1 = c.val := by
  unfold ScatterDims.window
  rw [dif_pos (show (1 : Fin 2) ∈ (rowsScatter N E D wf).sKept from
    (by decide : (1 : Fin 2) ∈ (List.finRange 2).filter (· ∉ ([0] : List (Fin 2)))))]
  rfl

/-- ROW TARGET (literal dimension numbers): update `(e, c)` of a row scatter lands at `(i, c)` where `i` is the row
its index word `idx[e, 0]` addresses, and nowhere when that word leaves `[0, N)`. -/
theorem rowsScatter_resultIdx? :
    (rowsScatter N E D wf).resultIdx? (ix2 e c) idx
      = (rowTarget N (idx (ix2 e 0))).map (fun i => ix2 i c) := by
  have h0s := rowsScatter_start0 wf idx e c
  have h0w := rowsScatter_window0 wf e c
  have h1s := rowsScatter_start1 wf idx e c
  have h1w := rowsScatter_window1 wf e c
  unfold ScatterDims.resultIdx? rowTarget
  by_cases h : 0 ≤ (idx (ix2 e 0)).toInt ∧ (idx (ix2 e 0)).toInt < N
  · have hall : ∀ a : Fin 2, 0 ≤ (rowsScatter N E D wf).start (ix2 e c) idx a + (rowsScatter N E D wf).window (ix2 e c) a
        ∧ (rowsScatter N E D wf).start (ix2 e c) idx a + (rowsScatter N E D wf).window (ix2 e c) a
          < ((⟨2, ![N, D]⟩ : Shape).size a : Int) := by
      intro a
      match a with
      | ⟨0, _⟩ =>
        show 0 ≤ (rowsScatter N E D wf).start (ix2 e c) idx 0 + (rowsScatter N E D wf).window (ix2 e c) 0
          ∧ (rowsScatter N E D wf).start (ix2 e c) idx 0 + (rowsScatter N E D wf).window (ix2 e c) 0 < (N : Int)
        rw [h0s, h0w]; omega
      | ⟨1, _⟩ =>
        show 0 ≤ (rowsScatter N E D wf).start (ix2 e c) idx 1 + (rowsScatter N E D wf).window (ix2 e c) 1
          ∧ (rowsScatter N E D wf).start (ix2 e c) idx 1 + (rowsScatter N E D wf).window (ix2 e c) 1 < (D : Int)
        rw [h1s, h1w]; have := c.isLt; omega
    rw [dif_pos hall, dif_pos h, Option.map_some]
    congr 1
    funext a
    refine Fin.ext ?_
    match a with
    | ⟨0, _⟩ =>
      show ((rowsScatter N E D wf).start (ix2 e c) idx 0 + (rowsScatter N E D wf).window (ix2 e c) 0).toNat
        = (idx (ix2 e 0)).toInt.toNat
      rw [h0s, h0w]; simp
    | ⟨1, _⟩ =>
      show ((rowsScatter N E D wf).start (ix2 e c) idx 1 + (rowsScatter N E D wf).window (ix2 e c) 1).toNat = c.val
      rw [h1s, h1w]; simp
  · rw [dif_neg h, dif_neg]
    · rfl
    · intro hall
      have h0 : 0 ≤ (rowsScatter N E D wf).start (ix2 e c) idx 0 + (rowsScatter N E D wf).window (ix2 e c) 0
          ∧ (rowsScatter N E D wf).start (ix2 e c) idx 0 + (rowsScatter N E D wf).window (ix2 e c) 0 < (N : Int) := hall 0
      rw [h0s, h0w] at h0
      exact h (by omega)

/-- ROW TARGET, for any record with the row scatter's dimension numbers: update `(e, c)` lands at `(i, c)` where `i`
is the row its index word `idx[e, 0]` addresses, and nowhere when that word leaves `[0, N)`. -/
theorem resultIdx?_rows (d : ScatterDims ⟨2, ![N, D]⟩ ⟨2, ![E, 1]⟩ ⟨2, ![E, D]⟩)
    (hu : d.updateWindowDims = [1]) (hi : d.insertedWindowDims = [0]) (hs : d.scatterDimsToOperandDims = [0])
    (hv : d.indexVectorDim = 1) :
    d.resultIdx? (ix2 e c) idx = (rowTarget N (idx (ix2 e 0))).map (fun i => ix2 i c) := by
  obtain ⟨uw, iw, sd, iv, wf'⟩ := d
  dsimp only at hu hi hs hv
  subst hu hi hs hv
  exact rowsScatter_resultIdx? wf' idx e c

/-- Two rank-2 indices agree exactly when both coordinates do. -/
theorem ix2_eq_ix2_iff {n0 n1 : Nat} (a a' : Fin n0) (b b' : Fin n1) : ix2 a b = ix2 a' b' ↔ a = a' ∧ b = b' := by
  constructor
  · intro h
    exact ⟨congrFun h 0, congrFun h 1⟩
  · rintro ⟨rfl, rfl⟩; rfl

/-- SCATTER-ADD OF ROWS READ AT AN INDEX (on the extended reals): element `(i, c)` of the result is the operand's plus
the sum of column `c` of every update row `e` whose index word addresses row `i`. -/
theorem hostScatterAdd_rows_apply (d : ScatterDims ⟨2, ![N, D]⟩ ⟨2, ![E, 1]⟩ ⟨2, ![E, D]⟩)
    (hu : d.updateWindowDims = [1]) (hi : d.insertedWindowDims = [0]) (hs : d.scatterDimsToOperandDims = [0])
    (hv : d.indexVectorDim = 1)
    (x : (⟨2, ![N, D]⟩ : Shape).Idx → EReal) (upd : (⟨2, ![E, D]⟩ : Shape).Idx → EReal) (i : Fin N) :
    Ideal.hostScatterAdd d x idx upd (ix2 i c)
      = x (ix2 i c) + ∑ e ∈ Finset.univ.filter (fun e : Fin E => rowTarget N (idx (ix2 e 0)) = some i),
          upd (ix2 e c) := by
  unfold Ideal.hostScatterAdd
  congr 1
  rw [Finset.sum_filter, Finset.sum_filter, sum_idx2]
  refine Finset.sum_congr rfl fun e _ => ?_
  simp only [resultIdx?_rows idx e _ d hu hi hs hv]
  cases hr : rowTarget N (idx (ix2 e 0)) with
  | none => simp
  | some i' =>
    simp only [Option.map_some, Option.some.injEq, ix2_eq_ix2_iff]
    by_cases hii : i' = i
    · subst hii
      simp
    · simp [hii]

end Scatter

/-! ## Scatter-add into a flat table read at an index -/

section ScatterTable

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Two rank-1 indices agree exactly when their coordinates do. -/
theorem ix1_eq_ix1_iff {n : Nat} (a a' : Fin n) : ix1 a = ix1 a' ↔ a = a' := by
  constructor
  · intro h
    exact congrFun h 0
  · rintro rfl; rfl

/-- The dimension numbers of a scatter into a flat table `[N]` at scatter indices `[E, 1]` with updates `[E]`:
no update window axis, inserted window axis `0`, scatter-dims-to-operand-dims `[0]`, index vector axis `1`. -/
abbrev tableScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E : Nat} (wf : ScatterDims.WF ⟨1, ![N]⟩ ⟨2, ![E, 1]⟩ ⟨1, ![E]⟩ [] [0] [0] 1)
  (idx : IVec ⟨2, ![E, 1]⟩ 32) (e : Fin E)

/-- The window of update `e` starts at the index word `idx[e, 0]` read signed. -/
theorem tableScatter_start0 :
    (tableScatter N E wf).start (ix1 e) idx 0 = (idx (ix2 e 0)).toInt := by
  unfold ScatterDims.start
  rw [dif_pos (show (0 : Fin 1) ∈ (tableScatter N E wf).scatterDimsToOperandDims from List.mem_singleton.mpr rfl)]
  have hsi : (tableScatter N E wf).siIdx (ix1 e)
      ⟨List.idxOf (0 : Fin 1) (tableScatter N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The table's one axis is inserted: no window coordinate there. -/
theorem tableScatter_window0 : (tableScatter N E wf).window (ix1 e) 0 = 0 := by
  unfold ScatterDims.window
  rw [dif_neg (show (0 : Fin 1) ∉ (tableScatter N E wf).sKept from
    (by decide : (0 : Fin 1) ∉ (List.finRange 1).filter (· ∉ ([0] : List (Fin 1)))))]

/-- TARGET (literal dimension numbers): update `e` of a flat-table scatter lands at the entry its index word
`idx[e, 0]` addresses, and nowhere when that word leaves `[0, N)`. -/
theorem tableScatter_resultIdx? :
    (tableScatter N E wf).resultIdx? (ix1 e) idx = (rowTarget N (idx (ix2 e 0))).map (fun i => ix1 i) := by
  have h0s := tableScatter_start0 wf idx e
  have h0w := tableScatter_window0 wf e
  unfold ScatterDims.resultIdx? rowTarget
  by_cases h : 0 ≤ (idx (ix2 e 0)).toInt ∧ (idx (ix2 e 0)).toInt < N
  · have hall : ∀ a : Fin 1, 0 ≤ (tableScatter N E wf).start (ix1 e) idx a + (tableScatter N E wf).window (ix1 e) a
        ∧ (tableScatter N E wf).start (ix1 e) idx a + (tableScatter N E wf).window (ix1 e) a
          < ((⟨1, ![N]⟩ : Shape).size a : Int) := by
      intro a
      obtain rfl : a = 0 := Subsingleton.elim _ _
      show 0 ≤ (tableScatter N E wf).start (ix1 e) idx 0 + (tableScatter N E wf).window (ix1 e) 0
        ∧ (tableScatter N E wf).start (ix1 e) idx 0 + (tableScatter N E wf).window (ix1 e) 0 < (N : Int)
      rw [h0s, h0w]; omega
    rw [dif_pos hall, dif_pos h, Option.map_some]
    congr 1
    funext a
    obtain rfl : a = 0 := Subsingleton.elim _ _
    refine Fin.ext ?_
    show ((tableScatter N E wf).start (ix1 e) idx 0 + (tableScatter N E wf).window (ix1 e) 0).toNat
      = (idx (ix2 e 0)).toInt.toNat
    rw [h0s, h0w]; simp
  · rw [dif_neg h, dif_neg]
    · rfl
    · intro hall
      have h0 : 0 ≤ (tableScatter N E wf).start (ix1 e) idx 0 + (tableScatter N E wf).window (ix1 e) 0
          ∧ (tableScatter N E wf).start (ix1 e) idx 0 + (tableScatter N E wf).window (ix1 e) 0 < (N : Int) := hall 0
      rw [h0s, h0w] at h0
      exact h (by omega)

/-- TARGET, for any record with the flat-table scatter's dimension numbers. -/
theorem resultIdx?_table (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1) :
    d.resultIdx? (ix1 e) idx = (rowTarget N (idx (ix2 e 0))).map (fun i => ix1 i) := by
  obtain ⟨uw, iw, sd, iv, wf'⟩ := d
  dsimp only at hu hi hs hv
  subst hu hi hs hv
  exact tableScatter_resultIdx? wf' idx e

/-- SCATTER-ADD INTO A FLAT TABLE READ AT AN INDEX (on the extended reals): entry `i` of the result is the operand's
plus the sum of every update `e` whose index word addresses `i`. -/
theorem hostScatterAdd_table_apply (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1)
    (x : (⟨1, ![N]⟩ : Shape).Idx → EReal) (upd : (⟨1, ![E]⟩ : Shape).Idx → EReal) (i : Fin N) :
    Ideal.hostScatterAdd d x idx upd (ix1 i)
      = x (ix1 i) + ∑ e ∈ Finset.univ.filter (fun e : Fin E => rowTarget N (idx (ix2 e 0)) = some i),
          upd (ix1 e) := by
  unfold Ideal.hostScatterAdd
  congr 1
  rw [Finset.sum_filter, Finset.sum_filter, sum_idx1]
  refine Finset.sum_congr rfl fun e _ => ?_
  rw [resultIdx?_table idx e d hu hi hs hv]
  cases hr : rowTarget N (idx (ix2 e 0)) with
  | none => simp
  | some i' => simp only [Option.map_some, Option.some.injEq, ix1_eq_ix1_iff]

end ScatterTable

end Cert.SegmentSum

end
-- ==== Proof.Topology.lean ====
/-
  The graph's topology as the reference program computes it from the edge list, named once: for an edge e its source
  row (the normalised source index word, read signed and clamped into the table, as a row gather reads it) and, for a
  node j, the set of edges whose raw destination index word addresses row j (as a scatter-add counts them: an index
  outside the table addresses no row).
-/
import proofs.«107366_j5566277616086_2_alg».proof.Proof.Gen.ReferenceIdeal.Read
import proofs.«107366_j5566277616086_2_alg».proof.Proof.LibSegmentSum

noncomputable section

namespace Cert.Topology

open Idealize.ShloMosaic Idealize.ShloMosaic.ValueIdx Cert.ReferenceIdeal Cert.ReferenceIdeal.Read

/-- The row of the node table that edge e gathers from. -/
def srcRow (x1 : IVec S2x800000 32) (e : Fin 800000) : Fin 50000 :=
  ⟨min (val_main_v34 (F := Ideal) x1 (ix2 e 0)).toInt.toNat (50000 - 1), by omega⟩

/-- The row of the degree table that edge e's destination gathers from (the normalised destination index, clamped). -/
def dstRow (x1 : IVec S2x800000 32) (e : Fin 800000) : Fin 50000 :=
  ⟨min (val_main_v25 (F := Ideal) x1 (ix2 e 0)).toInt.toNat (50000 - 1), by omega⟩

/-- The edges that a scatter-add by destination lands on node j. -/
def inEdges (x1 : IVec S2x800000 32) (j : Fin 50000) : Finset (Fin 800000) :=
  Finset.univ.filter (fun e : Fin 800000 => Cert.SegmentSum.rowTarget 50000 (val_main_v39 (F := Ideal) x1 (ix2 e 0)) = some j)

end Cert.Topology

end
-- ==== Proof.KernelAggregate.lean ====
/-
  The kernel program's neighbour aggregate of the node features, computed on the host before the first launch,
  read at one entry: agg[j, l] = 0 + Σ over the edges e whose destination is node j of norm(e) · x[src(e), l], where
  norm(e) is the product of the two endpoints' inverse square-root degrees — a scatter-add, by destination, of the
  gathered source rows, each scaled by its edge's weight. The edge weights, the normalised source indices and the raw
  destination indices are the same terms of the edge list as the reference program computes, so they are named by the
  reference's stages.
-/
import proofs.«107366_j5566277616086_2_alg».proof.Proof.Gen.KernelIdeal
import proofs.«107366_j5566277616086_2_alg».proof.Proof.Topology
import proofs.«107366_j5566277616086_2_alg».proof.Proof.LibSegmentSum
import Idealize.ShloMosaic.Lib.Pipeline.Value
import Idealize.ShloMosaic.Lib.ValueIdx

noncomputable section

open scoped BigOperators

namespace Cert.KernelIdeal.Aggregate

open Idealize.ShloMosaic Idealize.ShloMosaic.ValueIdx Cert.Topology
open Cert.KernelIdeal Cert.KernelIdeal.Gen

/-- The host aggregate as one term of the node features and the edge list. -/
def aggX (x0 : FVec Ideal S50000x128 .f32) (x1 : IVec S2x800000 32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (Cert.ReferenceIdeal.Read.val_main_v39 (F := Ideal) x1)
    (mulf (broadcastInDim S800000x128 ![0, 1] bcast_S800000x1_S800000x128_0_1 (Cert.ReferenceIdeal.Read.val_main_v28 (F := Ideal) x1))
      (Host.gather gather_S50000x128_S800000x1_S800000x128_1_0_n_n_0_1_1128 x0 (Cert.ReferenceIdeal.Read.val_main_v34 (F := Ideal) x1)))

/-- The [E, 1] column's row index under the generated reading is the edge. -/
theorem idx_v28 (e : Fin 800000) : Cert.ReferenceIdeal.Read.idx_main_v28 (ix2 e (0 : Fin 1)) = ix1 e :=
  funext fun a => Fin.ext (by match a with | ⟨0, _⟩ => rfl)

/-- The broadcast edge weight at (e, l) is the edge's weight. -/
theorem weight_apply (x1 : IVec S2x800000 32) (e : Fin 800000) (l : Fin 128) :
    broadcastInDim S800000x128 ![0, 1] bcast_S800000x1_S800000x128_0_1 (Cert.ReferenceIdeal.Read.val_main_v28 (F := Ideal) x1) (ix2 e l)
      = Cert.ReferenceIdeal.Read.val_main_v27 (F := Ideal) x1 (ix1 e) := by
  rw [← idx_v28 e, ← Cert.ReferenceIdeal.Read.val_main_v28_apply]
  generalize Cert.ReferenceIdeal.Read.val_main_v28 (F := Ideal) x1 = y
  exact broadcastInDim_apply _ bcast_S800000x1_S800000x128_0_1 y (ix2 e l) (ix2 e (0 : Fin 1)) (fun a => match a with
    | ⟨0, _⟩ => by show e.val = if (800000 : Nat) = 1 then 0 else e.val; rw [if_neg (by decide)]
    | ⟨1, _⟩ => by show 0 = if (1 : Nat) = 1 then 0 else l.val; rw [if_pos rfl])

/-- The gathered source row at (e, l). -/
theorem gathered_apply (x0 : FVec Ideal S50000x128 .f32) (x1 : IVec S2x800000 32) (e : Fin 800000) (l : Fin 128) :
    Host.gather gather_S50000x128_S800000x1_S800000x128_1_0_n_n_0_1_1128 x0 (Cert.ReferenceIdeal.Read.val_main_v34 (F := Ideal) x1) (ix2 e l)
      = x0 (ix2 (srcRow x1 e) l) :=
  Cert.SegmentSum.gather_rows_apply (by norm_num) _ rfl rfl rfl rfl rfl rfl rfl x0 _ e l

/-- The zero splat at an entry. -/
theorem zeros_apply (j : Fin 50000) (l : Fin 128) :
    broadcastInDim S50000x128 ![] bcast_S_S50000x128 (constant (F := Ideal) S_ .f32 0x00000000#32) (ix2 j l)
      = Ideal.ofBits .f32 0x00000000#32 :=
  (broadcastInDim_apply ![] bcast_S_S50000x128 _ (ix2 j l) ix0 (fun a => a.elim0)).trans (constant_apply _ _)

/-- On the extended reals the host's accumulating scatter is the exact sum. -/
theorem scatterAdd_ideal {s si u : Shape} {w : Nat} (d : ScatterDims s si u) (x : FVec Ideal s .f32) (idx : IVec si w)
    (upd : FVec Ideal u .f32) : Host.scatterAdd (F := Ideal) d x idx upd = Ideal.hostScatterAdd d x idx upd := rfl

/-- The aggregate at an entry, as the scatter-add reads: the operand's entry plus the sum over the edges landing on j. -/
theorem aggX_scatter (x0 : FVec Ideal S50000x128 .f32) (x1 : IVec S2x800000 32) (j : Fin 50000) (l : Fin 128) :
    aggX x0 x1 (ix2 j l)
      = broadcastInDim S50000x128 ![] bcast_S_S50000x128 (constant (F := Ideal) S_ .f32 0x00000000#32) (ix2 j l)
        + ∑ e ∈ Finset.univ.filter (fun e : Fin 800000 =>
            Cert.SegmentSum.rowTarget 50000 (Cert.ReferenceIdeal.Read.val_main_v39 (F := Ideal) x1 (ix2 e 0)) = some j),
          mulf (broadcastInDim S800000x128 ![0, 1] bcast_S800000x1_S800000x128_0_1 (Cert.ReferenceIdeal.Read.val_main_v28 (F := Ideal) x1))
            (Host.gather gather_S50000x128_S800000x1_S800000x128_1_0_n_n_0_1_1128 x0 (Cert.ReferenceIdeal.Read.val_main_v34 (F := Ideal) x1)) (ix2 e l) := by
  unfold aggX
  rw [scatterAdd_ideal]
  generalize Cert.ReferenceIdeal.Read.val_main_v39 (F := Ideal) x1 = idx
  generalize mulf (broadcastInDim S800000x128 ![0, 1] bcast_S800000x1_S800000x128_0_1 (Cert.ReferenceIdeal.Read.val_main_v28 (F := Ideal) x1))
    (Host.gather gather_S50000x128_S800000x1_S800000x128_1_0_n_n_0_1_1128 x0 (Cert.ReferenceIdeal.Read.val_main_v34 (F := Ideal) x1)) = upd
  generalize broadcastInDim S50000x128 ![] bcast_S_S50000x128 (constant (F := Ideal) S_ .f32 0x00000000#32) = z
  exact Cert.SegmentSum.hostScatterAdd_rows_apply idx l scatter_S50000x128_S800000x1_S800000x128_1_0_0_1 rfl rfl rfl rfl z upd j

/-- THE AGGREGATE AT AN ENTRY. -/
theorem aggX_apply (x0 : FVec Ideal S50000x128 .f32) (x1 : IVec S2x800000 32) (j : Fin 50000) (l : Fin 128) :
    aggX x0 x1 (ix2 j l)
      = Ideal.ofBits .f32 0x00000000#32
        + ∑ e ∈ inEdges x1 j, Cert.ReferenceIdeal.Read.val_main_v27 (F := Ideal) x1 (ix1 e) * x0 (ix2 (srcRow x1 e) l) := by
  rw [aggX_scatter, zeros_apply]
  unfold inEdges
  refine congrArg (Ideal.ofBits .f32 0x00000000#32 + ·) (Finset.sum_congr rfl fun e _ => ?_)
  exact (mulf_apply _ _ _).trans (congrArg₂ (· * ·) (weight_apply x1 e l) (gathered_apply x0 x1 e l))

end Cert.KernelIdeal.Aggregate

end
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.LibDotInnerHost.lean ====
/-
  The host's matrix product along the last axis of the first operand and the first axis of the second, read at an entry,
  and the six facts about a record of dimension numbers that both readings (the matrix unit's and the host's) ask for,
  bundled so that a caller proves them once per record.

  For a [M, K] matrix against a [K, N] matrix both products have at (p, f) the entry Σ_k x[p, k] · W[k, f] over the
  extended reals: the host's product carries no accumulator, the matrix unit's starts from the zero splat.
-/
import Idealize.ShloMosaic.PureOps.Ideal.Laws
import Idealize.ShloMosaic.Lib.ValueIdx
import proofs.«107366_j5566277616086_2_alg».proof.Proof.LibDotInner

noncomputable section

open scoped BigOperators

namespace Idealize.ShloMosaic.DotInner

open Idealize.ShloMosaic Idealize.ShloMosaic.ValueIdx

variable {M N K : ℕ} {φ₁ φ₂ : FTy}

/-- What a plain row-by-column product's dimension numbers say: one contracted axis of extent K; the left operand's
    coordinates are (result row, contraction index), the right operand's (contraction index, result column). -/
structure Plain (D : DotDims ⟨2, ![M, K]⟩ ⟨2, ![K, N]⟩ ⟨2, ![M, N]⟩) : Prop where
  rank : D.contr.rank = 1
  size : D.contr.size ⟨0, by omega⟩ = K
  l0 : ∀ j q, (D.lhsIdx j q 0).val = (j 0).val
  l1 : ∀ j q, (D.lhsIdx j q 1).val = (q ⟨0, by omega⟩).val
  r0 : ∀ j q, (D.rhsIdx j q 0).val = (q ⟨0, by omega⟩).val
  r1 : ∀ j q, (D.rhsIdx j q 1).val = (j 1).val

/-- The matrix unit from the zero splat, entry (p, f): Σ_k lhs[p, k] · rhs[k, f]. -/
theorem Plain.matmul_zero {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) :=
  matmul_zero_apply D h.rank h.size h.l0 h.l1 h.r0 h.r1 prec lhs rhs p f

/-- The host's product, entry (p, f): the same sum, with no accumulator. -/
theorem Plain.dotGeneral {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    Host.dotGeneral (F := Ideal) D prec lhs rhs (ix2 p f) = ∑ k : Fin K, lhs (ix2 p k) * rhs (ix2 k f) := by
  show FloatOps.dotGeneral D prec .single lhs rhs (ix2 p f) = _
  rw [Ideal.dotGeneral_apply, ← Equiv.sum_comp (contrEquiv1 D K h.rank h.size).symm]
  refine Finset.sum_congr rfl fun k _ => ?_
  obtain ⟨el, er⟩ := operand_idx D h.rank h.size h.l0 h.l1 h.r0 h.r1 p f k
  rw [el, er]

/-- The six facts of a record D whose lists say rows-by-columns (left operand of shape sl contracted on its axis 1, right
    operand of shape sr on its axis 0, no batch axes): the contraction's rank and extent compute; the contracted
    coordinates are the library's single-axis lemmas; the kept coordinates are read off the index maps' own case split,
    whose two membership tests are decided on the record's lists. -/
macro "plain_record " D:term ", " sl:term ", " sr:term : term => `(
  { rank := rfl
    size := rfl
    l0 := fun j q => by
      unfold DotDims.lhsIdx
      rw [dif_neg (show ¬(0 : Fin ($sl).rank) ∈ ($D).lhsBatch by decide),
        dif_pos (show (0 : Fin ($sl).rank) ∈ ($D).lhsNonContracting by decide)]
      rfl
    l1 := fun j q => DotDims.lhsIdx_val_of_single $D rfl j q
    r0 := fun j q => DotDims.rhsIdx_val_of_single $D rfl j q
    r1 := fun j q => by
      unfold DotDims.rhsIdx
      rw [dif_neg (show ¬(1 : Fin ($sr).rank) ∈ ($D).rhsBatch by decide),
        dif_pos (show (1 : Fin ($sr).rank) ∈ ($D).rhsNonContracting by decide)]
      rfl })

end Idealize.ShloMosaic.DotInner

end
-- ==== Proof.LibAggregateDense.lean ====
/-
  Two general facts about finite sums and powers on the extended reals `EReal`, for values that are all
  (coercions of) real numbers.

  * **Aggregation commutes with a dense layer.**  For a finite edge set `S`, edge weights `n e`, edge feature
    rows `xs e l`, a self-loop weight `d` with feature row `xj l`, and a weight column `w l`,

        ∑ l, ((∑ e ∈ S, n e * xs e l) + d * xj l) * w l
          = (∑ e ∈ S, n e * ∑ l, xs e l * w l) + d * ∑ l, xj l * w l,

    i.e. "aggregate the neighbours (and the node itself), then contract with the column" equals "contract each
    row with the column, then aggregate".  On `EReal` multiplication does not distribute over addition at the
    infinities, so the identity is proved where it is true: every entry is a real number, every term is rewritten
    as the coercion of a real expression, and the identity is closed in `ℝ` by distributivity and exchanging the
    two finite sums.

  * **The inverse square root of a degree is a real number.**  The float patterns `0x3F800000`, `0x00000000` and
    `0xBF000000` denote the reals `1`, `0` and `-1/2`; a finite sum of reals is a real; and `Ideal.pow` of two reals
    is `Real.rpow` of them, again a real.  Hence `(0 + ∑ _e ∈ S, 1 + 1) ^ (-1/2)` is (the coercion of) a real.

  Helper facts exported on the way: sums and products of two reals are real, a finite sum of reals is real, and
  the coercion `ℝ → EReal` commutes with finite sums.
-/
import Idealize.ShloMosaic.PureOps.Ideal

noncomputable section

namespace Cert.LibAggregateDense

open Idealize.ShloMosaic
open scoped BigOperators

/-! ### Being a real number is closed under `+`, `*` and finite sums -/

/-- The sum of two reals is a real. -/
theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The product of two reals is a real. -/
theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- The coercion `ℝ → EReal` commutes with a finite sum. -/
theorem coe_sum {E : Type*} (S : Finset E) (f : E → ℝ) :
    ((∑ e ∈ S, f e : ℝ) : EReal) = ∑ e ∈ S, (f e : EReal) := by
  classical
  induction S using Finset.induction_on with
  | empty => simp
  | insert a s ha ih => rw [Finset.sum_insert ha, Finset.sum_insert ha, EReal.coe_add, ih]

/-- A finite sum of reals is a real. -/
theorem real_sum {E : Type*} (S : Finset E) (f : E → EReal)
    (h : ∀ e ∈ S, ∃ r : ℝ, f e = (r : EReal)) : ∃ r : ℝ, ∑ e ∈ S, f e = (r : EReal) := by
  classical
  induction S using Finset.induction_on with
  | empty => exact ⟨0, by simp⟩
  | insert a s ha ih =>
    rw [Finset.sum_insert ha]
    exact real_add (h a (Finset.mem_insert_self a s))
      (ih fun e he => h e (Finset.mem_insert_of_mem he))

/-! ### Aggregation with a self-loop commutes with a dense layer -/

/-- The identity in `ℝ`: distribute, then exchange the sum over edges with the sum over columns. -/
theorem aggregate_dense_real {E L : Type*} [Fintype L] (S : Finset E) (n : E → ℝ) (xs : E → L → ℝ)
    (d : ℝ) (xj : L → ℝ) (w : L → ℝ) :
    ∑ l, ((∑ e ∈ S, n e * xs e l) + d * xj l) * w l
      = (∑ e ∈ S, n e * ∑ l, xs e l * w l) + d * ∑ l, xj l * w l := by
  simp only [add_mul, Finset.sum_add_distrib, Finset.sum_mul, Finset.mul_sum]
  rw [Finset.sum_comm]
  simp only [mul_assoc]

/-- The same identity on `EReal`, when every entry is a real number. -/
theorem aggregate_dense {E L : Type*} [Fintype L] (S : Finset E) (n : E → EReal) (xs : E → L → EReal)
    (d : EReal) (xj : L → EReal) (w : L → EReal)
    (hn : ∀ e, ∃ r : ℝ, n e = (r : EReal)) (hxs : ∀ e l, ∃ r : ℝ, xs e l = (r : EReal))
    (hd : ∃ r : ℝ, d = (r : EReal)) (hxj : ∀ l, ∃ r : ℝ, xj l = (r : EReal))
    (hw : ∀ l, ∃ r : ℝ, w l = (r : EReal)) :
    ∑ l, ((∑ e ∈ S, n e * xs e l) + d * xj l) * w l
      = (∑ e ∈ S, n e * ∑ l, xs e l * w l) + d * ∑ l, xj l * w l := by
  choose n' hn' using hn
  choose xs' hxs' using hxs
  obtain ⟨d', rfl⟩ := hd
  choose xj' hxj' using hxj
  choose w' hw' using hw
  -- every entry is the coercion of its real witness; push the coercion outwards through `*`, `+` and `∑`
  simp only [hn', hxs', hxj', hw', ← EReal.coe_mul, ← EReal.coe_add, ← coe_sum]
  -- both sides are now coercions of real expressions: conclude in `ℝ`
  exact congrArg _ (aggregate_dense_real S n' xs' d' xj' w')

/-! ### The three float constants, and the inverse square root of a degree -/

/-- The pattern `0x3F800000` (sign `+`, biased exponent `127`, fraction `0`) denotes the real `1`. -/
theorem ofBits_one_f32 : Ideal.ofBits .f32 0x3F800000#32 = ((1 : ℝ) : EReal) := by
  simp [Ideal.ofBits, Ideal.ieee, -EReal.coe_mul]
  norm_num

/-- The all-zero pattern denotes `0`. -/
theorem ofBits_zero_f32 : Ideal.ofBits .f32 0x00000000#32 = 0 := by
  simp [Ideal.ofBits, Ideal.ieee]

/-- The pattern `0xBF000000` (sign `-`, biased exponent `126`, fraction `0`) denotes the real `-1/2`. -/
theorem ofBits_neg_half_f32 : Ideal.ofBits .f32 0xBF000000#32 = ((-(1 / 2) : ℝ) : EReal) := by
  simp [Ideal.ofBits, Ideal.ieee, -EReal.coe_mul]
  norm_num

/-- `1.0` is a real. -/
theorem ofBits_one_f32_real : ∃ r : ℝ, Ideal.ofBits .f32 0x3F800000#32 = (r : EReal) :=
  ⟨1, ofBits_one_f32⟩

/-- `0.0` is a real. -/
theorem ofBits_zero_f32_real : ∃ r : ℝ, Ideal.ofBits .f32 0x00000000#32 = (r : EReal) :=
  ⟨0, ofBits_zero_f32.trans EReal.coe_zero.symm⟩

/-- `-0.5` is a real. -/
theorem ofBits_neg_half_f32_real : ∃ r : ℝ, Ideal.ofBits .f32 0xBF000000#32 = (r : EReal) :=
  ⟨-(1 / 2), ofBits_neg_half_f32⟩

/-- A real to a real power is a real: on two coercions `Ideal.pow` is `Real.rpow`. -/
theorem pow_real {x y : EReal} (hx : ∃ r : ℝ, x = (r : EReal)) (hy : ∃ r : ℝ, y = (r : EReal)) :
    ∃ r : ℝ, Ideal.pow x y = (r : EReal) := by
  obtain ⟨a, rfl⟩ := hx
  obtain ⟨b, rfl⟩ := hy
  exact ⟨Real.rpow a b, Ideal.pow_coe_coe a b⟩

/-- The inverse square root of a degree `(0 + ∑ _e ∈ S, 1) + 1`, computed as a power with exponent `-1/2`,
    is a real number. -/
theorem inv_sqrt_degree_real {E : Type*} (S : Finset E) :
    ∃ r : ℝ, Ideal.pow ((Ideal.ofBits .f32 0x00000000#32 + ∑ _e ∈ S, Ideal.ofBits .f32 0x3F800000#32)
      + Ideal.ofBits .f32 0x3F800000#32) (Ideal.ofBits .f32 0xBF000000#32) = (r : EReal) :=
  pow_real
    (real_add
      (real_add ofBits_zero_f32_real (real_sum S _ fun _ _ => ofBits_one_f32_real))
      ofBits_one_f32_real)
    ofBits_neg_half_f32_real

end Cert.LibAggregateDense

end
-- ==== Proof.RefLayerOne.lean ====
/-
  The reference program's first graph-convolution layer, read at one entry, and the fact that its degree
  normalisations are real numbers.  Everything is on the extended reals.

  With deg j the number of edges whose raw destination index word addresses node j, the program computes
  dinv j = (deg j + 1) ^ (-1/2), the edge weight norm e = dinv (source row of e) * dinv (destination row of e), and

      out[j, k] = max ( ( (0 + ∑ e ∈ inEdges j, norm e * ∑ l, x0[srcRow e, l] * x2[l, k])
                          + dinv j * dinv j * ∑ l, x0[j, l] * x2[l, k] )
                        + x3[k] ) 0 .

  * dinv j is a real number: the degree is a finite sum of ones, and a real to a real power is a real.
  * norm e is a real number: a product of two entries of dinv.
  * The entry formula above: the scatter-add of weighted gathered rows of x0 · x2 read at (j, k), the self-loop term,
    the bias and the final maximum with zero, each stage read at an index.
-/
import proofs.«107366_j5566277616086_2_alg».proof.Proof.Gen.ReferenceIdeal.Read
import proofs.«107366_j5566277616086_2_alg».proof.Proof.Topology
import proofs.«107366_j5566277616086_2_alg».proof.Proof.LibSegmentSum
import proofs.«107366_j5566277616086_2_alg».proof.Proof.LibDotInnerHost
import proofs.«107366_j5566277616086_2_alg».proof.Proof.LibAggregateDense
import Idealize.ShloMosaic.Lib.ValueIdx
import Idealize.ShloMosaic.Lib.Pipeline.Value
import Idealize.ShloMosaic.PureOps.Ideal.Laws

noncomputable section

namespace Cert.RefLayerOne

open Idealize.ShloMosaic Idealize.ShloMosaic.ValueIdx Cert.ReferenceIdeal Cert.ReferenceIdeal.Read Cert.Topology
open scoped BigOperators

/-! ### The degree table and its inverse square root -/

/-- On the extended reals the host's accumulating scatter is the exact sum of the colliding updates. -/
theorem scatterAdd_eq {s si u : Shape} {w : Nat} {φ : FTy} (d : ScatterDims s si u) (x : FVec Ideal s φ)
    (idx : IVec si w) (upd : FVec Ideal u φ) :
    Host.scatterAdd (F := Ideal) d x idx upd = Ideal.hostScatterAdd d x idx upd := rfl

/-- The degree table at node i: zero plus one for every edge whose raw destination index word addresses i. -/
theorem degree_apply (x1 : IVec S2x800000 32) (i : Fin 50000) :
    val_main_v8 (F := Ideal) x1 (ix1 i)
      = Ideal.ofBits .f32 0x00000000#32
        + ∑ _e ∈ Finset.univ.filter (fun e : Fin 800000 =>
            Cert.SegmentSum.rowTarget 50000 (val_main_v7 (F := Ideal) x1 (ix2 e 0)) = some i),
          Ideal.ofBits .f32 0x3F800000#32 := by
  have h := Cert.SegmentSum.hostScatterAdd_table_apply (val_main_v7 (F := Ideal) x1)
    scatter_S50000_S800000x1_S800000_n_0_0_1 rfl rfl rfl rfl
    (val_main_v6 (F := Ideal)) (val_main_v5 (F := Ideal)) i
  rw [val_main_v8, scatterAdd_eq, h, val_main_v6_apply, val_main_cst_0_apply]
  simp only [val_main_v5_apply, val_main_cst_apply, Ideal.ofBits_def]

/-- dinv i = (deg i + 1) ^ (-1/2) is a real number. -/
theorem dinv_real (x1 : IVec S2x800000 32) (i : Fin 50000) :
    ∃ r : ℝ, val_main_v12 (F := Ideal) x1 (ix1 i) = (r : EReal) := by
  rw [val_main_v12_apply, val_main_v10_apply, val_main_v11_apply, val_main_cst_2_apply, val_main_v9_apply,
    val_main_cst_1_apply, degree_apply]
  simp only [Ideal.hostPowf_def, Ideal.addf_def, Ideal.ofBits_def]
  generalize Finset.univ.filter (fun e : Fin 800000 =>
    Cert.SegmentSum.rowTarget 50000 (val_main_v7 (F := Ideal) x1 (ix2 e 0)) = some i) = S
  exact Cert.LibAggregateDense.inv_sqrt_degree_real S

/-! ### The edge weights -/

/-- The row of the degree table that edge e's source gathers from (the normalised source index, clamped). -/
def srcRowD (x1 : IVec S2x800000 32) (e : Fin 800000) : Fin 50000 :=
  ⟨min (val_main_v18 (F := Ideal) x1 (ix2 e 0)).toInt.toNat (50000 - 1), by omega⟩

/-- A gather from the flat table of 50000 entries at 800000 start indices, read at e. -/
theorem gather_table_read (t : FVec Ideal S50000 .f32) (idx : IVec S800000x1 32) (e : Fin 800000) :
    Host.gather gather_S50000_S800000x1_S800000_n_0_n_n_0_1_1 t idx (ix1 e)
      = t (ix1 ⟨min (idx (ix2 e 0)).toInt.toNat (50000 - 1), by omega⟩) :=
  Cert.SegmentSum.gather_table_apply (N := 50000) (by norm_num)
    gather_S50000_S800000x1_S800000_n_0_n_n_0_1_1 rfl rfl rfl rfl rfl rfl rfl t idx e

/-- norm e = dinv (source row) * dinv (destination row). -/
theorem norm_apply (x1 : IVec S2x800000 32) (e : Fin 800000) :
    val_main_v27 (F := Ideal) x1 (ix1 e)
      = val_main_v12 (F := Ideal) x1 (ix1 (srcRowD x1 e)) * val_main_v12 (F := Ideal) x1 (ix1 (dstRow x1 e)) := by
  rw [val_main_v27_apply, val_main_v19, val_main_v26, gather_table_read, gather_table_read, Ideal.mulf_def]
  unfold srcRowD dstRow
  rfl

/-- norm e is a real number. -/
theorem norm_real (x1 : IVec S2x800000 32) (e : Fin 800000) :
    ∃ r : ℝ, val_main_v27 (F := Ideal) x1 (ix1 e) = (r : EReal) := by
  rw [norm_apply]
  exact Cert.LibAggregateDense.real_mul (dinv_real x1 _) (dinv_real x1 _)

/-! ### The layer at one entry -/

/-- The feature transform x0 · x2 at (j, k). -/
theorem v4_apply (x0 : FVec Ideal S50000x128 .f32) (x2 : FVec Ideal S128x256 .f32) (j : Fin 50000) (k : Fin 256) :
    val_main_v4 (F := Ideal) x0 x2 (ix2 j k) = ∑ l : Fin 128, x0 (ix2 j l) * x2 (ix2 l k) := by
  rw [val_main_v4_apply]
  refine Finset.sum_congr rfl fun l _ => ?_
  have hl : lidx_main_v4 (ix2 j k) l = ix2 j l :=
    funext fun a => by match a with | ⟨0, _⟩ => rfl | ⟨1, _⟩ => rfl
  have hr : ridx_main_v4 (ix2 j k) l = ix2 l k :=
    funext fun a => by match a with | ⟨0, _⟩ => rfl | ⟨1, _⟩ => rfl
  rw [hl, hr]

/-- The edge weight broadcast along the feature axis. -/
theorem v36_apply (x1 : IVec S2x800000 32) (e : Fin 800000) (k : Fin 256) :
    val_main_v36 (F := Ideal) x1 (ix2 e k) = val_main_v27 (F := Ideal) x1 (ix1 e) := by
  have h : idx_main_v28 (idx_main_v36 (ix2 e k)) = ix1 e :=
    funext fun a => by match a with | ⟨0, _⟩ => rfl
  rw [val_main_v36_apply, val_main_v28_apply, h]

/-- The self-loop weight dinv j * dinv j broadcast along the feature axis. -/
theorem v43_apply (x1 : IVec S2x800000 32) (j : Fin 50000) (k : Fin 256) :
    val_main_v43 (F := Ideal) x1 (ix2 j k)
      = val_main_v12 (F := Ideal) x1 (ix1 j) * val_main_v12 (F := Ideal) x1 (ix1 j) := by
  have h : idx_main_v42 (idx_main_v43 (ix2 j k)) = ix1 j :=
    funext fun a => by match a with | ⟨0, _⟩ => rfl
  rw [val_main_v43_apply, val_main_v42_apply, h, val_main_v41_apply, Ideal.mulf_def]

/-- The bias broadcast along the node axis. -/
theorem v47_apply (x3 : FVec Ideal S256 .f32) (j : Fin 50000) (k : Fin 256) :
    val_main_v47 (F := Ideal) x3 (ix2 j k) = x3 (ix1 k) := by
  have h : idx_main_v46 (idx_main_v47 (ix2 j k)) = ix1 k :=
    funext fun a => by match a with | ⟨0, _⟩ => rfl
  rw [val_main_v47_apply, val_main_v46_apply, h]

/-- A gather of rows from the table of 50000 rows of width 256 at 800000 start indices, read at (e, k). -/
theorem gather_rows_read (t : FVec Ideal S50000x256 .f32) (idx : IVec S800000x1 32) (e : Fin 800000) (k : Fin 256) :
    Host.gather gather_S50000x256_S800000x1_S800000x256_1_0_n_n_0_1_1256 t idx (ix2 e k)
      = t (ix2 ⟨min (idx (ix2 e 0)).toInt.toNat (50000 - 1), by omega⟩ k) :=
  Cert.SegmentSum.gather_rows_apply (N := 50000) (by norm_num)
    gather_S50000x256_S800000x1_S800000x256_1_0_n_n_0_1_1256 rfl rfl rfl rfl rfl rfl rfl t idx e k

/-- The gathered source row of x0 · x2 at (e, k). -/
theorem v35_apply (x0 : FVec Ideal S50000x128 .f32) (x1 : IVec S2x800000 32) (x2 : FVec Ideal S128x256 .f32)
    (e : Fin 800000) (k : Fin 256) :
    val_main_v35 (F := Ideal) x0 x1 x2 (ix2 e k) = val_main_v4 (F := Ideal) x0 x2 (ix2 (srcRow x1 e) k) := by
  rw [val_main_v35, gather_rows_read]
  unfold srcRow
  rfl

/-- A scatter-add of rows of width 256 into the table of 50000 rows by 800000 index words, read at (j, k). -/
theorem scatter_rows_read (z : FVec Ideal S50000x256 .f32) (idx : IVec S800000x1 32)
    (upd : FVec Ideal S800000x256 .f32) (j : Fin 50000) (k : Fin 256) :
    Ideal.hostScatterAdd scatter_S50000x256_S800000x1_S800000x256_1_0_0_1 z idx upd (ix2 j k)
      = z (ix2 j k) + ∑ e ∈ Finset.univ.filter (fun e : Fin 800000 =>
          Cert.SegmentSum.rowTarget 50000 (idx (ix2 e 0)) = some j), upd (ix2 e k) :=
  Cert.SegmentSum.hostScatterAdd_rows_apply idx k scatter_S50000x256_S800000x1_S800000x256_1_0_0_1
    rfl rfl rfl rfl z upd j

/-- The aggregation over incoming edges at (j, k): zero plus, for every edge whose raw destination index word addresses
    j, its weight times the gathered source row of x0 · x2. -/
theorem v40_apply (x0 : FVec Ideal S50000x128 .f32) (x1 : IVec S2x800000 32) (x2 : FVec Ideal S128x256 .f32)
    (j : Fin 50000) (k : Fin 256) :
    val_main_v40 (F := Ideal) x0 x1 x2 (ix2 j k)
      = Ideal.ofBits .f32 0x00000000#32
        + ∑ e ∈ inEdges x1 j, val_main_v27 (F := Ideal) x1 (ix1 e)
            * ∑ l : Fin 128, x0 (ix2 (srcRow x1 e) l) * x2 (ix2 l k) := by
  rw [val_main_v40, scatterAdd_eq, scatter_rows_read, val_main_v38_apply, val_main_cst_8_apply, Ideal.ofBits_def]
  unfold inEdges
  refine congrArg (fun t => Ideal.ofBits .f32 0x00000000#32 + t) (Finset.sum_congr rfl fun e _ => ?_)
  rw [val_main_v37_apply, v36_apply, v35_apply, v4_apply, Ideal.mulf_def]

/-- THE FIRST LAYER AT ONE ENTRY. -/
theorem ref_layer1_apply (x0 : FVec Ideal S50000x128 .f32) (x1 : IVec S2x800000 32) (x2 : FVec Ideal S128x256 .f32)
    (x3 : FVec Ideal S256 .f32) (j : Fin 50000) (k : Fin 256) :
    val_main_v49 (F := Ideal) x0 x1 x2 x3 (ix2 j k)
      = max (((Ideal.ofBits .f32 0x00000000#32
                + ∑ e ∈ inEdges x1 j, val_main_v27 (F := Ideal) x1 (ix1 e)
                    * ∑ l : Fin 128, x0 (ix2 (srcRow x1 e) l) * x2 (ix2 l k))
              + val_main_v12 (F := Ideal) x1 (ix1 j) * val_main_v12 (F := Ideal) x1 (ix1 j)
                  * ∑ l : Fin 128, x0 (ix2 j l) * x2 (ix2 l k))
             + x3 (ix1 k)) (Ideal.ofBits .f32 0x00000000#32) := by
  rw [val_main_v49_apply, val_main_call0_v0_apply, val_main_call0_cst_apply, val_main_v48_apply,
    val_main_v45_apply, val_main_v44_apply, v40_apply, v43_apply, v4_apply, v47_apply]
  simp only [Ideal.maximumf_def, Ideal.addf_def, Ideal.mulf_def, Ideal.ofBits_def]

end Cert.RefLayerOne

end
-- ==== Proof.LibKeepdimsLayout.lean ====
/-
  Layout operations read at an index given by coordinates, for the shapes a row-wise reduction with a kept axis and a
  block with two leading unit axes produce: a vector `[a]` cast to a column `[a, 1]`, a column `[a, 1]` broadcast
  along its rows to `[a, b]`, and the casts between `[1, 1, a, b]` and `[a, b]`. A cast keeps the row-major position,
  and a unit axis contributes nothing to it; a broadcast re-reads the column's one entry of the row at every column.
  Each lemma is the general read-at-an-index lemma of the operation with both indices written by coordinates, so that
  it applies to a printed operation by unification.
-/
import Idealize.ShloMosaic.Lib.Pipeline.Value
import Idealize.ShloMosaic.Lib.ValueIdx

namespace Cert.LayoutKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LayoutKeepdims
-- ==== Proof.LayerOneBridge.lean ====
/-
  Layer 1 of the kernel is layer 1 of the reference, entry by entry, when the node features and the first weight
  matrix are real numbers.

  The kernel aggregates the node FEATURES over the graph and adds the self-loop term before its dense layer:
  Σ_l (Σ_{e → j} n_e · x[s_e, l] + d_j² · x[j, l]) · W[l, k]; the reference applies the dense layer first and aggregates
  its output: Σ_{e → j} n_e · (Σ_l x[s_e, l] · W[l, k]) + d_j² · Σ_l x[j, l] · W[l, k]. The two are equal by
  distributivity and exchanging the two finite sums — laws that hold on the extended reals only where every term is a
  real number: the features and weights by the precondition, the edge weights n_e and the inverse square-root degrees
  d_j because a degree is a positive count. Bias and rectifier are then applied to equal numbers.
-/
import proofs.«107366_j5566277616086_2_alg».proof.Proof.Spec
import proofs.«107366_j5566277616086_2_alg».proof.Proof.KernelAggregate
import proofs.«107366_j5566277616086_2_alg».proof.Proof.RefLayerOne
import proofs.«107366_j5566277616086_2_alg».proof.Proof.LibAggregateDense
import proofs.«107366_j5566277616086_2_alg».proof.Proof.LibKeepdimsLayout
import Idealize.ShloMosaic.Lib.ValueLayout

noncomputable section

open scoped BigOperators

namespace Cert.LayerOneBridge

open Idealize.ShloMosaic Idealize.ShloMosaic.ValueIdx Cert.ReferenceIdeal Cert.ReferenceIdeal.Read Cert.Topology Cert.Gcn
open Cert.KernelIdeal.Aggregate Cert.RefLayerOne Cert.LibAggregateDense

/-- LAYER 1, KERNEL FORM = REFERENCE FORM. -/
theorem layer1_eq_ref (x0 : FVec Ideal S50000x128 .f32) (x1 : IVec S2x800000 32) (x2 : FVec Ideal S128x256 .f32)
    (x3 : FVec Ideal S256 .f32) (hx0 : ∀ i, ∃ r : ℝ, x0 i = (r : EReal)) (hx2 : ∀ i, ∃ r : ℝ, x2 i = (r : EReal))
    (hc : S50000.ShapeCasts S50000x1) (hb : S256.ShapeCasts S1x256) :
    layer1 x0 (aggX x0 x1) (shapeCast S50000x1 (val_main_v12 (F := Ideal) x1) hc) x2 (shapeCast S1x256 x3 hb)
      = val_main_v49 (F := Ideal) x0 x1 x2 x3 := by
  funext i
  obtain ⟨j, k, rfl⟩ : ∃ (j : Fin 50000) (k : Fin 256), i = ix2 j k := ⟨i 0, i 1, eq_ix2 (n0 := 50000) (n1 := 256) i⟩
  rw [layer1_apply, ref_layer1_apply]
  unfold layer1At
  rw [Cert.LayoutKeepdims.shapeCast_a_a1_apply, shapeCast_a_1a_apply]
  simp only [aggX_apply]
  rw [Cert.LibAggregateDense.ofBits_zero_f32]
  simp only [zero_add]
  refine congrArg (max · 0) (congrArg (· + x3 (ix1 k)) ?_)
  exact aggregate_dense (inEdges x1 j) (fun e => val_main_v27 (F := Ideal) x1 (ix1 e)) (fun e l => x0 (ix2 (srcRow x1 e) l))
    (val_main_v12 (F := Ideal) x1 (ix1 j) * val_main_v12 (F := Ideal) x1 (ix1 j)) (fun l => x0 (ix2 j l)) (fun l => x2 (ix2 l k))
    (fun e => norm_real x1 e) (fun e l => hx0 _) (real_mul (dinv_real x1 j) (dinv_real x1 j)) (fun l => hx0 _) (fun l => hx2 _)

end Cert.LayerOneBridge

end
-- ==== Proof.KernelBodies.lean ====
/-
  What each of the three kernel bodies stores, read at one entry, on the extended reals.

  Layer 1's body takes a block of 5000 node rows: with m[p, l] = agg[p, l] + (d[p] · d[p]) · x[p, l] it stores
  max (Σ_l m[p, l] · W[l, f] + b[f], 0) — the self-loop term added to the aggregated features before the dense layer,
  then the bias, then the rectifier. Layer 2's first body is the plain product Σ_k a[p, k] · W[k, f]; its second body is
  agg[p, f] + (d[p] · d[p]) · h[p, f] + b[f]. The matrix unit starts from the zero splat, so its entry is the plain sum;
  a column [5000, 1] broadcast along its rows reads the row's one entry, a row [1, n] broadcast down the rows reads the
  column's entry.
-/
import proofs.«107366_j5566277616086_2_alg».proof.Proof.Gen.KernelIdeal.Skeleton
import proofs.«107366_j5566277616086_2_alg».proof.Proof.LibDotInnerHost
import proofs.«107366_j5566277616086_2_alg».proof.Proof.LibKeepdimsLayout
import Idealize.ShloMosaic.Lib.ValueLayout
import Idealize.ShloMosaic.Lib.Pipeline.Value
import Idealize.ShloMosaic.Lib.ValueIdx
import Idealize.ShloMosaic.PureOps.Ideal.Laws

noncomputable section

open scoped BigOperators

namespace Cert.KernelIdeal.Bodies

open Idealize.ShloMosaic Idealize.ShloMosaic.ValueIdx Idealize.ShloMosaic.DotInner Cert.LayoutKeepdims
open Cert.KernelIdeal Cert.KernelIdeal.Gen

/-- Layer 1's product record is a plain rows-by-columns product [5000, 128] × [128, 256]. -/
theorem plain0 : Plain dot_S5000x128_S128x256_S5000x256_1_0_0_1_n_n :=
  plain_record dot_S5000x128_S128x256_S5000x256_1_0_0_1_n_n, S5000x128, S128x256

/-- Layer 2's product record is a plain rows-by-columns product [5000, 256] × [256, 64]. -/
theorem plain1 : Plain dot_S5000x256_S256x64_S5000x64_1_0_0_1_n_n :=
  plain_record dot_S5000x256_S256x64_S5000x64_1_0_0_1_n_n, S5000x256, S256x64

/-- LAYER 1's BODY at entry (p, f). -/
theorem pay0_apply (d d' : Vec Ideal S5000x1 .f32) (agg x : Vec Ideal S5000x128 .f32) (W : Vec Ideal S128x256 .f32)
    (b : Vec Ideal S1x256 .f32) (p : Fin 5000) (f : Fin 256) :
    k0_pay1 (F := Ideal) d d' agg x W b (ix2 p f)
      = max ((∑ l : Fin 128, (agg (ix2 p l) + d (ix2 p 0) * d' (ix2 p 0) * x (ix2 p l)) * W (ix2 l f)) + b (ix2 0 f))
          (Ideal.ofBits .f32 0x00000000#32) := by
  unfold k0_pay1
  simp only [shapeCast_self]
  rw [maximumf_apply, addf_apply]
  refine congrArg₂ max (congrArg₂ (· + ·) ?_ ?_) rfl
  · refine (plain0.matmul_zero _ _ W p f).trans (Finset.sum_congr rfl fun l _ => ?_)
    rw [addf_apply, mulf_apply, broadcastTo_a1_ab_apply, mulf_apply]
  · exact broadcastTo_1b_ab_apply _ _ p f

/-- LAYER 2's PRODUCT BODY at entry (p, f). -/
theorem pay1_apply (a : Vec Ideal S5000x256 .f32) (W : Vec Ideal S256x64 .f32) (p : Fin 5000) (f : Fin 64) :
    k1_pay1 (F := Ideal) a W (ix2 p f) = ∑ k : Fin 256, a (ix2 p k) * W (ix2 k f) := by
  unfold k1_pay1
  simp only [shapeCast_self]
  exact plain1.matmul_zero _ a W p f

/-- LAYER 2's COMBINING BODY at entry (p, f). -/
theorem pay2_apply (d d' : Vec Ideal S5000x1 .f32) (agg h : Vec Ideal S5000x64 .f32) (b : Vec Ideal S1x64 .f32)
    (p : Fin 5000) (f : Fin 64) :
    k2_pay1 (F := Ideal) d d' agg h b (ix2 p f)
      = agg (ix2 p f) + d (ix2 p 0) * d' (ix2 p 0) * h (ix2 p f) + b (ix2 0 f) := by
  unfold k2_pay1
  simp only [shapeCast_self]
  rw [addf_apply, addf_apply, mulf_apply, broadcastTo_a1_ab_apply, mulf_apply, broadcastTo_1b_ab_apply]

end Cert.KernelIdeal.Bodies

end
-- ==== Proof.KernelArrays.lean ====
/-
  From blocks to whole arrays: what each of the three launches leaves in its output array, as one function of the
  arrays the launch finds.

  Every launch walks 10 grid points; point t stages rows 5000·t … 5000·t + 4999 of each row-blocked operand (and the
  whole of a weight matrix or a bias row), runs the body on the staged blocks and writes the result back as rows
  5000·t … of the output. An entry of a row-blocked input block is therefore the array's entry 5000·t rows further
  down, the body's entry (p, f) is the whole-array function's entry (5000·t + p, f), and the ten row blocks cover the
  output: the output array ends holding the whole-array function.
-/
import proofs.«107366_j5566277616086_2_alg».proof.Proof.Gen.KernelIdeal.Frame
import proofs.«107366_j5566277616086_2_alg».proof.Proof.KernelBodies
import proofs.«107366_j5566277616086_2_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.KernelIdeal.Bodies Cert.Gcn

variable (V : (c : Dev nD) → (b : Ref sig .tc) → Buf (Elt Ideal) ((c : Thread nD τ).loc b))

theorem hz : (![0, 0] : Fin 2 → Nat) = fun _ => 0 := funext fun a => by fin_cases a <;> rfl

/-- Row p of grid point t's block is row 5000·t + p of the array. -/
def row (t : Nat) (ht : t < 10) (p : Fin 5000) : Fin 50000 := ⟨5000 * t + p.val, by have := p.isLt; omega⟩

/-! ## Launch 0 -/

/-- The printed index maps of launch 0 over the grid: row-blocked operands sit at block row t, column block 0; the
    weight matrix and the bias row at block (0, 0). -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem lt0 (t : Fin cfg0.N) : t.val < 10 := lt_of_lt_of_eq t.isLt N_0

theorem iblk0_0_apply (c : Dev nD) (t : Fin cfg0.N) (p : Fin 5000) (l : Fin 128) :
    (iblk0 V c 0 t : Vec Ideal S5000x128 .f32) (ix2 p l) = (V c main_arg0 : S50000x128.Idx → EReal) (ix2 (row t.val (lt0 t) p) l) := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 5000 + 1 * p.val = 5000 * t.val + p.val; rw [e0]; omega
  | ⟨1, _⟩ => show win0_0.index t 1 * 128 + 1 * l.val = l.val; rw [e1]; omega

theorem iblk0_1_apply (c : Dev nD) (t : Fin cfg0.N) (p : Fin 5000) (l : Fin 128) :
    (iblk0 V c 1 t : Vec Ideal S5000x128 .f32) (ix2 p l) = (V c main_v39 : S50000x128.Idx → EReal) (ix2 (row t.val (lt0 t) p) l) := by
  obtain ⟨-, -, e0, e1, -⟩ := idx0 t
  unfold iblk0
  rw [View.read_apply]
  show V c main_v39 _ = V c main_v39 _
  congr 1
  funext a
  apply Fin.ext
  match a with
  | ⟨0, _⟩ => show win0_1.index t 0 * 5000 + 1 * p.val = 5000 * t.val + p.val; rw [e0]; omega
  | ⟨1, _⟩ => show win0_1.index t 1 * 128 + 1 * l.val = l.val; rw [e1]; omega

theorem iblk0_2_apply (c : Dev nD) (t : Fin cfg0.N) (p : Fin 5000) :
    (iblk0 V c 2 t : Vec Ideal S5000x1 .f32) (ix2 p 0) = (V c main_v40 : S50000x1.Idx → EReal) (ix2 (row t.val (lt0 t) p) 0) := by
  obtain ⟨-, -, -, -, e0, e1, -⟩ := idx0 t
  unfold iblk0
  rw [View.read_apply]
  show V c main_v40 _ = V c main_v40 _
  congr 1
  funext a
  apply Fin.ext
  match a with
  | ⟨0, _⟩ => show win0_2.index t 0 * 5000 + 1 * p.val = 5000 * t.val + p.val; rw [e0]; omega
  | ⟨1, _⟩ => show win0_2.index t 1 * 1 + 1 * 0 = 0; rw [e1]

theorem iblk0_3_apply (c : Dev nD) (t : Fin cfg0.N) (l : Fin 128) (f : Fin 256) :
    (iblk0 V c 3 t : Vec Ideal S128x256 .f32) (ix2 l f) = (V c main_arg2 : S128x256.Idx → EReal) (ix2 l f) := by
  obtain ⟨-, -, -, -, -, -, e0, e1, -⟩ := idx0 t
  unfold iblk0
  rw [View.read_apply]
  show V c main_arg2 _ = V c main_arg2 _
  congr 1
  funext a
  apply Fin.ext
  match a with
  | ⟨0, _⟩ => show win0_3.index t 0 * 128 + 1 * l.val = l.val; rw [e0]; omega
  | ⟨1, _⟩ => show win0_3.index t 1 * 256 + 1 * f.val = f.val; rw [e1]; omega

theorem iblk0_4_apply (c : Dev nD) (t : Fin cfg0.N) (f : Fin 256) :
    (iblk0 V c 4 t : Vec Ideal S1x256 .f32) (ix2 0 f) = (V c main_v41 : S1x256.Idx → EReal) (ix2 0 f) := by
  obtain ⟨-, -, -, -, -, -, -, -, e0, e1, -⟩ := idx0 t
  unfold iblk0
  rw [View.read_apply]
  show V c main_v41 _ = V c main_v41 _
  congr 1
  funext a
  apply Fin.ext
  match a with
  | ⟨0, _⟩ => show win0_4.index t 0 * 1 + 1 * 0 = 0; rw [e0]
  | ⟨1, _⟩ => show win0_4.index t 1 * 256 + 1 * f.val = f.val; rw [e1]; omega

/-- Entry (p, f) of point t's output block sits at (5000·t + p, f) of the output array. -/
theorem emb0_5 (t : Fin cfg0.N) (p : Fin 5000) (f : Fin 256) :
    ((cfg0.win 5).blk t).view.emb (ix2 p f) = (ix2 (row t.val (lt0 t) p) f : S50000x256.Idx) := by
  obtain ⟨-, -, -, -, -, -, -, -, -, -, e0, e1⟩ := idx0 t
  funext a
  apply Fin.ext
  match a with
  | ⟨0, _⟩ => show win0_5.index t 0 * 5000 + 1 * p.val = 5000 * t.val + p.val; rw [e0]; omega
  | ⟨1, _⟩ => show win0_5.index t 1 * 256 + 1 * f.val = f.val; rw [e1]; omega

/-- WHAT POINT t WRITES BACK is block t of layer 1 of the arrays the launch finds. -/
theorem flushed0 (c : Dev nD) (t : Fin cfg0.N) :
    (dat0 V c).flushed 5 t = ((cfg0.win 5).blk t).view.read (Elt Ideal)
      (layer1 (V c main_arg0) (V c main_v39) (V c main_v40) (V c main_arg2) (V c main_v41)) := by
  show (cfg0.win 5).cut (grid0.coords t) ((dat0 V c).after 5 t) = _
  rw [after0_5]
  unfold out0_5
  rw [View.canon_unit_zero hz]
  simp only [View.ld_unit_zero (S := S5000x1) hz, View.ld_unit_zero (S := S5000x128) hz,
    View.ld_unit_zero (S := S128x256) hz, View.ld_unit_zero (S := S1x256) hz]
  funext j
  obtain ⟨p, f, rfl⟩ : ∃ (p : Fin 5000) (f : Fin 256), j = ix2 p f := ⟨j 0, j 1, eq_ix2 (n0 := 5000) (n1 := 256) j⟩
  refine (pay0_apply _ _ _ _ _ _ p f).trans ?_
  rw [View.read_apply, emb0_5, layer1_apply]
  unfold layer1At
  simp only [iblk0_0_apply, iblk0_1_apply, iblk0_2_apply, iblk0_3_apply, iblk0_4_apply]
  rfl

/-- The ten row blocks cover the output array. -/
theorem cover0 (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, htv⟩ : ∃ t : Fin cfg0.N, t.val = (i 0).val / 5000 :=
    ⟨⟨(i 0).val / 5000, by rw [show cfg0.N = 10 from N_0]; omega⟩, rfl⟩
  obtain ⟨-, -, -, -, -, -, -, -, -, -, e0, e1⟩ := idx0 t
  refine ⟨t, flush0_5 t, ?_⟩
  show i ∈ ((View.whole main_v42).slice (win0_5.rect t)).set
  rw [View.set_slice_whole, Rect.mem_set_unit]
  intro a
  match a with
  | ⟨0, _⟩ =>
    show win0_5.index t 0 * 5000 ≤ (i 0).val ∧ (i 0).val < win0_5.index t 0 * 5000 + 5000
    rw [e0, htv]; omega
  | ⟨1, _⟩ =>
    show win0_5.index t 1 * 256 ≤ (i 1).val ∧ (i 1).val < win0_5.index t 1 * 256 + 256
    rw [e1]; omega

/-- LAUNCH 0's OUTPUT ARRAY after its ten points: layer 1 of the arrays it found. -/
theorem arr0 (c : Dev nD) : (dat0 V c).arrAt 5 cfg0.N
    = layer1 (V c main_arg0) (V c main_v39) (V c main_v40) (V c main_arg2) (V c main_v41) :=
  (dat0 V c).arrAt_eq_of_cover 5 _ (fun t _ => flushed0 V c t) cover0

/-! ## Launch 1 -/

theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem lt1 (t : Fin cfg1.N) : t.val < 10 := lt_of_lt_of_eq t.isLt N_1

theorem iblk1_0_apply (c : Dev nD) (t : Fin cfg1.N) (p : Fin 5000) (l : Fin 256) :
    (iblk1 V c 0 t : Vec Ideal S5000x256 .f32) (ix2 p l) = (V c main_v42 : S50000x256.Idx → EReal) (ix2 (row t.val (lt1 t) p) l) := by
  obtain ⟨e0, e1, -⟩ := idx1 t
  unfold iblk1
  rw [View.read_apply]
  show V c main_v42 _ = V c main_v42 _
  congr 1
  funext a
  apply Fin.ext
  match a with
  | ⟨0, _⟩ => show win1_0.index t 0 * 5000 + 1 * p.val = 5000 * t.val + p.val; rw [e0]; omega
  | ⟨1, _⟩ => show win1_0.index t 1 * 256 + 1 * l.val = l.val; rw [e1]; omega

theorem iblk1_1_apply (c : Dev nD) (t : Fin cfg1.N) (l : Fin 256) (f : Fin 64) :
    (iblk1 V c 1 t : Vec Ideal S256x64 .f32) (ix2 l f) = (V c main_arg4 : S256x64.Idx → EReal) (ix2 l f) := by
  obtain ⟨-, -, e0, e1, -⟩ := idx1 t
  unfold iblk1
  rw [View.read_apply]
  show V c main_arg4 _ = V c main_arg4 _
  congr 1
  funext a
  apply Fin.ext
  match a with
  | ⟨0, _⟩ => show win1_1.index t 0 * 256 + 1 * l.val = l.val; rw [e0]; omega
  | ⟨1, _⟩ => show win1_1.index t 1 * 64 + 1 * f.val = f.val; rw [e1]; omega

/-- Entry (p, f) of point t's output block sits at (5000·t + p, f) of the output array. -/
theorem emb1_2 (t : Fin cfg1.N) (p : Fin 5000) (f : Fin 64) :
    ((cfg1.win 2).blk t).view.emb (ix2 p f) = (ix2 (row t.val (lt1 t) p) f : S50000x64.Idx) := by
  obtain ⟨-, -, -, -, e0, e1⟩ := idx1 t
  funext a
  apply Fin.ext
  match a with
  | ⟨0, _⟩ => show win1_2.index t 0 * 5000 + 1 * p.val = 5000 * t.val + p.val; rw [e0]; omega
  | ⟨1, _⟩ => show win1_2.index t 1 * 64 + 1 * f.val = f.val; rw [e1]; omega

/-- WHAT POINT t WRITES BACK is block t of the launch's whole-array function of the arrays it finds. -/
theorem flushed1 (c : Dev nD) (t : Fin cfg1.N) :
    (dat1 V c).flushed 2 t = ((cfg1.win 2).blk t).view.read (Elt Ideal)
      (product (V c main_v42) (V c main_arg4)) := by
  show (cfg1.win 2).cut (grid1.coords t) ((dat1 V c).after 2 t) = _
  rw [after1_2]
  unfold out1_2
  rw [View.canon_unit_zero hz]
  simp only [View.ld_unit_zero (S := S5000x256) hz, View.ld_unit_zero (S := S256x64) hz]
  funext j
  obtain ⟨p, f, rfl⟩ : ∃ (p : Fin 5000) (f : Fin 64), j = ix2 p f := ⟨j 0, j 1, eq_ix2 (n0 := 5000) (n1 := 64) j⟩
  refine (pay1_apply _ _ p f).trans ?_
  rw [View.read_apply, emb1_2, product_apply]
  unfold productAt
  simp only [iblk1_0_apply, iblk1_1_apply]
  rfl

/-- The ten row blocks cover the output array. -/
theorem cover1 (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, htv⟩ : ∃ t : Fin cfg1.N, t.val = (i 0).val / 5000 :=
    ⟨⟨(i 0).val / 5000, by rw [show cfg1.N = 10 from N_1]; omega⟩, rfl⟩
  obtain ⟨-, -, -, -, e0, e1⟩ := idx1 t
  refine ⟨t, flush1_2 t, ?_⟩
  show i ∈ ((View.whole main_v43).slice (win1_2.rect t)).set
  rw [View.set_slice_whole, Rect.mem_set_unit]
  intro a
  match a with
  | ⟨0, _⟩ =>
    show win1_2.index t 0 * 5000 ≤ (i 0).val ∧ (i 0).val < win1_2.index t 0 * 5000 + 5000
    rw [e0, htv]; omega
  | ⟨1, _⟩ =>
    show win1_2.index t 1 * 64 ≤ (i 1).val ∧ (i 1).val < win1_2.index t 1 * 64 + 64
    rw [e1]; omega

/-- THE LAUNCH's OUTPUT ARRAY after its ten points. -/
theorem arr1 (c : Dev nD) : (dat1 V c).arrAt 2 cfg1.N
    = product (V c main_v42) (V c main_arg4) :=
  (dat1 V c).arrAt_eq_of_cover 2 _ (fun t _ => flushed1 V c t) cover1

/-! ## Launch 2 -/

theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem lt2 (t : Fin cfg2.N) : t.val < 10 := lt_of_lt_of_eq t.isLt N_2

theorem iblk2_0_apply (c : Dev nD) (t : Fin cfg2.N) (p : Fin 5000) (l : Fin 64) :
    (iblk2 V c 0 t : Vec Ideal S5000x64 .f32) (ix2 p l) = (V c main_v43 : S50000x64.Idx → EReal) (ix2 (row t.val (lt2 t) p) l) := by
  obtain ⟨e0, e1, -⟩ := idx2 t
  unfold iblk2
  rw [View.read_apply]
  show V c main_v43 _ = V c main_v43 _
  congr 1
  funext a
  apply Fin.ext
  match a with
  | ⟨0, _⟩ => show win2_0.index t 0 * 5000 + 1 * p.val = 5000 * t.val + p.val; rw [e0]; omega
  | ⟨1, _⟩ => show win2_0.index t 1 * 64 + 1 * l.val = l.val; rw [e1]; omega

theorem iblk2_1_apply (c : Dev nD) (t : Fin cfg2.N) (p : Fin 5000) (l : Fin 64) :
    (iblk2 V c 1 t : Vec Ideal S5000x64 .f32) (ix2 p l) = (V c main_v56 : S50000x64.Idx → EReal) (ix2 (row t.val (lt2 t) p) l) := by
  obtain ⟨-, -, e0, e1, -⟩ := idx2 t
  unfold iblk2
  rw [View.read_apply]
  show V c main_v56 _ = V c main_v56 _
  congr 1
  funext a
  apply Fin.ext
  match a with
  | ⟨0, _⟩ => show win2_1.index t 0 * 5000 + 1 * p.val = 5000 * t.val + p.val; rw [e0]; omega
  | ⟨1, _⟩ => show win2_1.index t 1 * 64 + 1 * l.val = l.val; rw [e1]; omega

theorem iblk2_2_apply (c : Dev nD) (t : Fin cfg2.N) (p : Fin 5000) :
    (iblk2 V c 2 t : Vec Ideal S5000x1 .f32) (ix2 p 0) = (V c main_v57 : S50000x1.Idx → EReal) (ix2 (row t.val (lt2 t) p) 0) := by
  obtain ⟨-, -, -, -, e0, e1, -⟩ := idx2 t
  unfold iblk2
  rw [View.read_apply]
  show V c main_v57 _ = V c main_v57 _
  congr 1
  funext a
  apply Fin.ext
  match a with
  | ⟨0, _⟩ => show win2_2.index t 0 * 5000 + 1 * p.val = 5000 * t.val + p.val; rw [e0]; omega
  | ⟨1, _⟩ => show win2_2.index t 1 * 1 + 1 * 0 = 0; rw [e1]

theorem iblk2_3_apply (c : Dev nD) (t : Fin cfg2.N) (f : Fin 64) :
    (iblk2 V c 3 t : Vec Ideal S1x64 .f32) (ix2 0 f) = (V c main_v58 : S1x64.Idx → EReal) (ix2 0 f) := by
  obtain ⟨-, -, -, -, -, -, e0, e1, -⟩ := idx2 t
  unfold iblk2
  rw [View.read_apply]
  show V c main_v58 _ = V c main_v58 _
  congr 1
  funext a
  apply Fin.ext
  match a with
  | ⟨0, _⟩ => show win2_3.index t 0 * 1 + 1 * 0 = 0; rw [e0]
  | ⟨1, _⟩ => show win2_3.index t 1 * 64 + 1 * f.val = f.val; rw [e1]; omega

/-- Entry (p, f) of point t's output block sits at (5000·t + p, f) of the output array. -/
theorem emb2_4 (t : Fin cfg2.N) (p : Fin 5000) (f : Fin 64) :
    ((cfg2.win 4).blk t).view.emb (ix2 p f) = (ix2 (row t.val (lt2 t) p) f : S50000x64.Idx) := by
  obtain ⟨-, -, -, -, -, -, -, -, e0, e1⟩ := idx2 t
  funext a
  apply Fin.ext
  match a with
  | ⟨0, _⟩ => show win2_4.index t 0 * 5000 + 1 * p.val = 5000 * t.val + p.val; rw [e0]; omega
  | ⟨1, _⟩ => show win2_4.index t 1 * 64 + 1 * f.val = f.val; rw [e1]; omega

/-- WHAT POINT t WRITES BACK is block t of the launch's whole-array function of the arrays it finds. -/
theorem flushed2 (c : Dev nD) (t : Fin cfg2.N) :
    (dat2 V c).flushed 4 t = ((cfg2.win 4).blk t).view.read (Elt Ideal)
      (combine (V c main_v43) (V c main_v56) (V c main_v57) (V c main_v58)) := by
  show (cfg2.win 4).cut (grid2.coords t) ((dat2 V c).after 4 t) = _
  rw [after2_4]
  unfold out2_4
  rw [View.canon_unit_zero hz]
  simp only [View.ld_unit_zero (S := S5000x1) hz, View.ld_unit_zero (S := S5000x64) hz, View.ld_unit_zero (S := S1x64) hz]
  funext j
  obtain ⟨p, f, rfl⟩ : ∃ (p : Fin 5000) (f : Fin 64), j = ix2 p f := ⟨j 0, j 1, eq_ix2 (n0 := 5000) (n1 := 64) j⟩
  refine (pay2_apply _ _ _ _ _ p f).trans ?_
  rw [View.read_apply, emb2_4, combine_apply]
  unfold combineAt
  simp only [iblk2_0_apply, iblk2_1_apply, iblk2_2_apply, iblk2_3_apply]
  rfl

/-- The ten row blocks cover the output array. -/
theorem cover2 (i : S50000x64.Idx) :
    ∃ t : Fin cfg2.N, (cfg2.win 4).flush t = true ∧ i ∈ ((cfg2.win 4).blk t).view.set := by
  have hi0 : (i 0).val < 50000 := (i 0).isLt
  have hi1 : (i 1).val < 64 := (i 1).isLt
  obtain ⟨t, htv⟩ : ∃ t : Fin cfg2.N, t.val = (i 0).val / 5000 :=
    ⟨⟨(i 0).val / 5000, by rw [show cfg2.N = 10 from N_2]; omega⟩, rfl⟩
  obtain ⟨-, -, -, -, -, -, -, -, e0, e1⟩ := idx2 t
  refine ⟨t, flush2_4 t, ?_⟩
  show i ∈ ((View.whole main_v59).slice (win2_4.rect t)).set
  rw [View.set_slice_whole, Rect.mem_set_unit]
  intro a
  match a with
  | ⟨0, _⟩ =>
    show win2_4.index t 0 * 5000 ≤ (i 0).val ∧ (i 0).val < win2_4.index t 0 * 5000 + 5000
    rw [e0, htv]; omega
  | ⟨1, _⟩ =>
    show win2_4.index t 1 * 64 ≤ (i 1).val ∧ (i 1).val < win2_4.index t 1 * 64 + 64
    rw [e1]; omega

/-- THE LAUNCH's OUTPUT ARRAY after its ten points. -/
theorem arr2 (c : Dev nD) : (dat2 V c).arrAt 4 cfg2.N
    = combine (V c main_v43) (V c main_v56) (V c main_v57) (V c main_v58) :=
  (dat2 V c).arrAt_eq_of_cover 4 _ (fun t _ => flushed2 V c t) cover2

end Cert.KernelIdeal.Arrays

end
-- ==== Proof.KernelValue.lean ====
/-
  The contents of the kernel program's buffers at the boundaries of its run, read back to the argument arrays: what
  the first stretch of host operations leaves in the buffers the launches read (the neighbour aggregate of the features,
  the inverse square-root degrees as a column, the bias as a row, the edge weights and the index vectors), and what the
  launches and the second stretch then make of them, down to the result array as one term of the six arguments.
-/
import proofs.«107366_j5566277616086_2_alg».proof.Proof.Gen.KernelIdeal.Frame
import proofs.«107366_j5566277616086_2_alg».proof.Proof.KernelArrays
import proofs.«107366_j5566277616086_2_alg».proof.Proof.KernelAggregate
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.Arrays Cert.KernelIdeal.Aggregate Cert.Gcn
open Cert.ReferenceIdeal.Read (val_main_v1 val_main_v3 val_main_v12 val_main_v27 val_main_v58 val_main_v73 val_main_v74 val_main_v80 val_main_v85)

variable (m : (ℓ : Loc nD τ sig) → Buf (Elt Ideal) ℓ) (ρ : Dev nD → PrngReg) (c : Dev nD)

/-! ## After the first stretch of host operations -/

theorem W1_arg0 : W1 m ρ c (Proc.devRef .tc main_arg0) = m ((c : Thread nD τ).loc main_arg0) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
theorem W1_arg2 : W1 m ρ c (Proc.devRef .tc main_arg2) = m ((c : Thread nD τ).loc main_arg2) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
theorem W1_arg4 : W1 m ρ c (Proc.devRef .tc main_arg4) = m ((c : Thread nD τ).loc main_arg4) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
theorem W1_arg5 : W1 m ρ c (Proc.devRef .tc main_arg5) = m ((c : Thread nD τ).loc main_arg5) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The inverse square-root degrees. -/
theorem W1_v11 : W1 m ρ c (Proc.devRef .tc main_v11) = val_main_v12 (F := Ideal) (m ((c : Thread nD τ).loc main_arg1)) := by
  show StableHlo.after hostOps0 (W0 m ρ c) (Proc.devRef .tc main_v11) = _
  after_results_simp
  rfl

/-- The edge weights. -/
theorem W1_v26 : W1 m ρ c (Proc.devRef .tc main_v26) = val_main_v27 (F := Ideal) (m ((c : Thread nD τ).loc main_arg1)) := by
  show StableHlo.after hostOps0 (W0 m ρ c) (Proc.devRef .tc main_v26) = _
  after_results_simp
  rfl

/-- The raw source indices. -/
theorem W1_v1 : W1 m ρ c (Proc.devRef .tc main_v1) = val_main_v1 (F := Ideal) (m ((c : Thread nD τ).loc main_arg1)) := by
  show StableHlo.after hostOps0 (W0 m ρ c) (Proc.devRef .tc main_v1) = _
  after_results_simp
  rfl

/-- The raw destination indices. -/
theorem W1_v3 : W1 m ρ c (Proc.devRef .tc main_v3) = val_main_v3 (F := Ideal) (m ((c : Thread nD τ).loc main_arg1)) := by
  show StableHlo.after hostOps0 (W0 m ρ c) (Proc.devRef .tc main_v3) = _
  after_results_simp
  rfl

/-- The neighbour aggregate of the node features. -/
theorem W1_v39 : W1 m ρ c (Proc.devRef .tc main_v39)
    = aggX (m ((c : Thread nD τ).loc main_arg0)) (m ((c : Thread nD τ).loc main_arg1)) := by
  show StableHlo.after hostOps0 (W0 m ρ c) (Proc.devRef .tc main_v39) = _
  after_results_simp
  rfl

/-- The inverse square-root degrees as a column. -/
theorem W1_v40 : W1 m ρ c (Proc.devRef .tc main_v40)
    = shapeCast S50000x1 (val_main_v12 (F := Ideal) (m ((c : Thread nD τ).loc main_arg1))) shapeCasts_S50000_S50000x1 := by
  show StableHlo.after hostOps0 (W0 m ρ c) (Proc.devRef .tc main_v40) = _
  after_results_simp
  rfl

/-- The first bias as a row. -/
theorem W1_v41 : W1 m ρ c (Proc.devRef .tc main_v41)
    = shapeCast S1x256 (m ((c : Thread nD τ).loc main_arg3)) shapeCasts_S256_S1x256 := by
  show StableHlo.after hostOps0 (W0 m ρ c) (Proc.devRef .tc main_v41) = _
  after_results_simp
  rfl

/-! ## The second layer's neighbour aggregate, as a term of the product it aggregates -/

/-- The reference program computes the degrees and the edge weights a second time for its second layer; the second
    computation is the first's, term for term. -/
theorem dinv_again (x1 : IVec S2x800000 32) : val_main_v12 (F := Ideal) x1 = val_main_v58 (F := Ideal) x1 := rfl
theorem norm_again (x1 : IVec S2x800000 32) : val_main_v27 (F := Ideal) x1 = val_main_v73 (F := Ideal) x1 := rfl

/-- The host aggregate of a [50000, 64] array h over the graph: Σ over the edges into j of norm(e) · h[src(e), ·]. -/
def aggH (h : FVec Ideal S50000x64 .f32) (x1 : IVec S2x800000 32) : FVec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (val_main_v85 (F := Ideal) x1)
    (mulf (broadcastInDim S800000x64 ![0, 1] bcast_S800000x1_S800000x64_0_1 (val_main_v74 (F := Ideal) x1))
      (Host.gather gather_S50000x64_S800000x1_S800000x64_1_0_n_n_0_1_164 h (val_main_v80 (F := Ideal) x1)))

/-! ## After the first launch, the second launch and the second stretch of host operations -/

theorem W2_v42 : W2 m ρ c (Proc.devRef .tc main_v42)
    = layer1 (m ((c : Thread nD τ).loc main_arg0))
        (aggX (m ((c : Thread nD τ).loc main_arg0)) (m ((c : Thread nD τ).loc main_arg1)))
        (shapeCast S50000x1 (val_main_v12 (F := Ideal) (m ((c : Thread nD τ).loc main_arg1))) shapeCasts_S50000_S50000x1)
        (m ((c : Thread nD τ).loc main_arg2))
        (shapeCast S1x256 (m ((c : Thread nD τ).loc main_arg3)) shapeCasts_S256_S1x256) := by
  rw [show W2 m ρ c (Proc.devRef .tc main_v42) = (dat0 (V1 m ρ) c).arrAt 5 cfg0.N from W2_arr m ρ c 5, arr0]
  show layer1 (W1 m ρ c (Proc.devRef .tc main_arg0)) (W1 m ρ c (Proc.devRef .tc main_v39)) (W1 m ρ c (Proc.devRef .tc main_v40))
    (W1 m ρ c (Proc.devRef .tc main_arg2)) (W1 m ρ c (Proc.devRef .tc main_v41)) = _
  rw [W1_arg0, W1_v39, W1_v40, W1_arg2, W1_v41]

theorem W2_arg4 : W2 m ρ c (Proc.devRef .tc main_arg4) = m ((c : Thread nD τ).loc main_arg4) :=
  (W2_of_ne m ρ c main_arg4 (by decide)).trans (W1_arg4 m ρ c)

theorem W3_v43 : W3 m ρ c (Proc.devRef .tc main_v43)
    = product (W2 m ρ c (Proc.devRef .tc main_v42)) (m ((c : Thread nD τ).loc main_arg4)) := by
  rw [show W3 m ρ c (Proc.devRef .tc main_v43) = (dat1 (V2 m ρ) c).arrAt 2 cfg1.N from W3_arr m ρ c 2, arr1]
  show product (W2 m ρ c (Proc.devRef .tc main_v42)) (W2 m ρ c (Proc.devRef .tc main_arg4)) = _
  rw [W2_arg4]

theorem W3_v26 : W3 m ρ c (Proc.devRef .tc main_v26) = val_main_v73 (F := Ideal) (m ((c : Thread nD τ).loc main_arg1)) :=
  ((W3_of_ne m ρ c main_v26 (by decide)).trans ((W2_of_ne m ρ c main_v26 (by decide)).trans (W1_v26 m ρ c))).trans (norm_again _)
theorem W3_v11 : W3 m ρ c (Proc.devRef .tc main_v11) = val_main_v58 (F := Ideal) (m ((c : Thread nD τ).loc main_arg1)) :=
  ((W3_of_ne m ρ c main_v11 (by decide)).trans ((W2_of_ne m ρ c main_v11 (by decide)).trans (W1_v11 m ρ c))).trans (dinv_again _)
theorem W3_v1 : W3 m ρ c (Proc.devRef .tc main_v1) = val_main_v1 (F := Ideal) (m ((c : Thread nD τ).loc main_arg1)) :=
  (W3_of_ne m ρ c main_v1 (by decide)).trans ((W2_of_ne m ρ c main_v1 (by decide)).trans (W1_v1 m ρ c))
theorem W3_v3 : W3 m ρ c (Proc.devRef .tc main_v3) = val_main_v3 (F := Ideal) (m ((c : Thread nD τ).loc main_arg1)) :=
  (W3_of_ne m ρ c main_v3 (by decide)).trans ((W2_of_ne m ρ c main_v3 (by decide)).trans (W1_v3 m ρ c))
theorem W3_arg5 : W3 m ρ c (Proc.devRef .tc main_arg5) = m ((c : Thread nD τ).loc main_arg5) :=
  (W3_of_ne m ρ c main_arg5 (by decide)).trans ((W2_of_ne m ρ c main_arg5 (by decide)).trans (W1_arg5 m ρ c))

theorem W4_v43 : W4 m ρ c (Proc.devRef .tc main_v43) = W3 m ρ c (Proc.devRef .tc main_v43) :=
  (StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The second layer's aggregate. -/
theorem W4_v56 : W4 m ρ c (Proc.devRef .tc main_v56)
    = aggH (W3 m ρ c (Proc.devRef .tc main_v43)) (m ((c : Thread nD τ).loc main_arg1)) := by
  show StableHlo.after hostOps2 (W3 m ρ c) (Proc.devRef .tc main_v56) = _
  after_results_simp
  rw [W3_v26, W3_v1, W3_v3]
  rfl

theorem W4_v57 : W4 m ρ c (Proc.devRef .tc main_v57)
    = shapeCast S50000x1 (val_main_v58 (F := Ideal) (m ((c : Thread nD τ).loc main_arg1))) shapeCasts_S50000_S50000x1 := by
  show StableHlo.after hostOps2 (W3 m ρ c) (Proc.devRef .tc main_v57) = _
  after_results_simp
  rw [W3_v11]
  rfl

theorem W4_v58 : W4 m ρ c (Proc.devRef .tc main_v58)
    = shapeCast S1x64 (m ((c : Thread nD τ).loc main_arg5)) shapeCasts_S64_S1x64 := by
  show StableHlo.after hostOps2 (W3 m ρ c) (Proc.devRef .tc main_v58) = _
  after_results_simp
  rw [W3_arg5]
  rfl

/-! ## The result -/

/-- THE RESULT ARRAY as one term of the arguments: layer 2's combination of the product of layer 1 with the second
    weights, that product's neighbour aggregate, the inverse square-root degrees and the second bias. -/
theorem result_eq : W5 m ρ c (Proc.devRef .tc main_v59)
    = combine (W3 m ρ c (Proc.devRef .tc main_v43)) (aggH (W3 m ρ c (Proc.devRef .tc main_v43)) (m ((c : Thread nD τ).loc main_arg1)))
        (shapeCast S50000x1 (val_main_v58 (F := Ideal) (m ((c : Thread nD τ).loc main_arg1))) shapeCasts_S50000_S50000x1)
        (shapeCast S1x64 (m ((c : Thread nD τ).loc main_arg5)) shapeCasts_S64_S1x64) := by
  rw [show W5 m ρ c (Proc.devRef .tc main_v59) = (dat2 (V4 m ρ) c).arrAt 4 cfg2.N from W5_arr m ρ c 4, arr2]
  show combine (W4 m ρ c (Proc.devRef .tc main_v43)) (W4 m ρ c (Proc.devRef .tc main_v56)) (W4 m ρ c (Proc.devRef .tc main_v57))
    (W4 m ρ c (Proc.devRef .tc main_v58)) = _
  rw [W4_v43, W4_v56, W4_v57, W4_v58]

end Cert.KernelIdeal.Chain

end
-- ==== Proof.KernelRun.lean ====
/-
  The idealized kernel program's run with its result array named: every weakly fair execution terminates, nothing
  faulting, with the result buffer at what the last launch's write-backs leave and the argument arrays as launched.

  The program is a stretch of host operations, two launches, a second stretch of host operations and a last launch;
  the contents of the TensorCore's buffers at each boundary are a fold from the launch memory. The run below is the
  segment-by-segment run read at one more buffer — the result's — beside the arguments.
-/
import proofs.«107366_j5566277616086_2_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN, with the result named: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v59) = W5 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v59 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Result

end
-- ==== Proof.LayerTwoForms.lean ====
/-
  The second layer's two whole-array functions are stages of the reference program, on the extended reals.

  The reference computes the second layer of a two-layer graph convolution as a chain of whole-array operations:
  a host matrix product h = a · W of the first layer's output a [50000, 256] with the weight matrix W [256, 64]; the
  neighbour aggregate agg of h; the square of the vector dinv of inverse square roots of the degrees, broadcast first to a
  column [50000, 1] and then along the rows to [50000, 64]; and the bias vector b [64], broadcast first to a row [1, 64] and
  then down the rows. Its result is (agg + (dinv · dinv) · h) + b, entry by entry.

  Entry (j, f) of the host product is Σ_k a[j, k] · W[k, f], the plain product. Entry (j, f) of the result is
  agg[j, f] + (dinv[j] · dinv[j]) · h[j, f] + b[f]: each broadcast re-reads the one entry of its row or column, and a
  vector cast to a column [50000, 1] or to a row [1, 64] keeps its entries, so the combination taken of the column and
  the row is the reference's, with the same grouping of the sum and of the products.
-/
import proofs.«107366_j5566277616086_2_alg».proof.Proof.Spec
import proofs.«107366_j5566277616086_2_alg».proof.Proof.Gen.ReferenceIdeal.Read
import proofs.«107366_j5566277616086_2_alg».proof.Proof.LibKeepdimsLayout
import proofs.«107366_j5566277616086_2_alg».proof.Proof.LibDotInnerHost
import Idealize.ShloMosaic.Lib.ValueIdx
import Idealize.ShloMosaic.Lib.ValueLayout
import Idealize.ShloMosaic.Lib.Pipeline.Value
import Idealize.ShloMosaic.PureOps.Ideal.Laws

namespace Cert.LayerTwoForms

open Idealize.ShloMosaic Idealize.ShloMosaic.ValueIdx Cert.ReferenceIdeal Cert.ReferenceIdeal.Read Cert.Gcn

/-- The reference's second product record is a plain rows-by-columns product [50000, 256] × [256, 64]. -/
theorem plain_ref : DotInner.Plain dot_S50000x256_S256x64_S50000x64_1_0_0_1_n_n :=
  plain_record dot_S50000x256_S256x64_S50000x64_1_0_0_1_n_n, S50000x256, S256x64

/-- The plain product is the host's matrix product: both have Σ_k a[j, k] · w[k, f] at (j, f). -/
theorem product_eq_ref (a : FVec Ideal S50000x256 .f32) (w : FVec Ideal S256x64 .f32) :
    Cert.Gcn.product a w
      = Host.dotGeneral (F := Ideal) dot_S50000x256_S256x64_S50000x64_1_0_0_1_n_n none a w := by
  funext i
  obtain ⟨j, f, rfl⟩ : ∃ (j : Fin 50000) (f : Fin 64), i = ix2 j f := ⟨i 0, i 1, eq_ix2 i⟩
  rw [product_apply]
  unfold productAt
  exact (plain_ref.dotGeneral none a w j f).symm

/-- So the plain product of the reference's first-layer output with the second weight matrix is the reference's
    second-layer product stage. -/
theorem product_v49_eq_v50 (x0 : FVec Ideal S50000x128 .f32) (x1 : IVec S2x800000 32)
    (x2 : FVec Ideal S128x256 .f32) (x3 : FVec Ideal S256 .f32) (x4 : FVec Ideal S256x64 .f32) :
    Cert.Gcn.product (val_main_v49 (F := Ideal) x0 x1 x2 x3) x4 = val_main_v50 (F := Ideal) x0 x1 x2 x3 x4 := by
  unfold val_main_v50
  exact product_eq_ref _ _

/-- The combination of the reference's product, its aggregate, the degree vector as a column and the bias as a row is
    the reference's final stage: at (j, f) both are agg[j, f] + (dinv[j] · dinv[j]) · h[j, f] + b[f]. -/
theorem combine_eq_ref (x0 : FVec Ideal S50000x128 .f32) (x1 : IVec S2x800000 32)
    (x2 : FVec Ideal S128x256 .f32) (x3 : FVec Ideal S256 .f32) (x4 : FVec Ideal S256x64 .f32)
    (x5 : FVec Ideal S64 .f32) (hc : S50000.ShapeCasts S50000x1) (hb : S64.ShapeCasts S1x64) :
    Cert.Gcn.combine (val_main_v50 (F := Ideal) x0 x1 x2 x3 x4) (val_main_v86 (F := Ideal) x0 x1 x2 x3 x4)
        (shapeCast S50000x1 (val_main_v58 (F := Ideal) x1) hc) (shapeCast S1x64 x5 hb)
      = val_main_v94 (F := Ideal) x0 x1 x2 x3 x4 x5 := by
  funext i
  obtain ⟨j, f, rfl⟩ : ∃ (j : Fin 50000) (f : Fin 64), i = ix2 j f := ⟨i 0, i 1, eq_ix2 i⟩
  rw [combine_apply]
  unfold combineAt
  rw [val_main_v94_apply, val_main_v91_apply, val_main_v90_apply, val_main_v89_apply, val_main_v88_apply,
    val_main_v87_apply, val_main_v93_apply, val_main_v92_apply]
  rw [Cert.LayoutKeepdims.shapeCast_a_a1_apply, shapeCast_a_1a_apply]
  -- the two chains of broadcasts read the vectors at the row's and the column's own coordinate
  have e1 : idx_main_v88 (idx_main_v89 (ix2 j f)) = ix1 j :=
    funext fun a => by match a with | ⟨0, _⟩ => rfl
  have e2 : idx_main_v92 (idx_main_v93 (ix2 j f)) = ix1 f :=
    funext fun a => by match a with | ⟨0, _⟩ => rfl
  rw [e1, e2]
  rfl

end Cert.LayerTwoForms
-- ==== Proof.KernelResult.lean ====
/-
  The idealized kernel program's result array is the reference program's last stage of the same six arguments, given
  that the two programs' first layers agree (the one place where the real-number precondition enters): the second
  layer's product, neighbour aggregate and final combination are the same functions on both sides, the kernel's computed
  block by block on the TensorCore and the reference's by whole-array host operations.
-/
import proofs.«107366_j5566277616086_2_alg».proof.Proof.KernelValue
import proofs.«107366_j5566277616086_2_alg».proof.Proof.KernelRun
import proofs.«107366_j5566277616086_2_alg».proof.Proof.LayerTwoForms

noncomputable section

namespace Cert.KernelIdeal.Final

open Idealize.ShloMosaic Idealize.ShloMosaic.TcCoe Idealize.SL.Sem
open Cert.KernelIdeal Cert.KernelIdeal.Gen Cert.KernelIdeal.Chain Cert.KernelIdeal.Aggregate Cert.Gcn
open Cert.ReferenceIdeal.Read (val_main_v12 val_main_v49 val_main_v50 val_main_v58 val_main_v86 val_main_v94)

variable (m : (ℓ : Loc nD τ sig) → Buf (Elt Ideal) ℓ) (ρ : Dev nD → PrngReg)

/-- The second layer's aggregate of the reference's product stage is the reference's aggregate stage: the same
    scatter-add of the same gathered, weighted rows. -/
theorem aggH_ref (x0 : FVec Ideal S50000x128 .f32) (x1 : IVec S2x800000 32) (x2 : FVec Ideal S128x256 .f32)
    (x3 : FVec Ideal S256 .f32) (x4 : FVec Ideal S256x64 .f32) :
    aggH (val_main_v50 (F := Ideal) x0 x1 x2 x3 x4) x1 = val_main_v86 (F := Ideal) x0 x1 x2 x3 x4 := rfl

/-- The first layers agree (as whole arrays, on core c's arguments). -/
def LayerOneAgrees (c : Dev nD) : Prop :=
  layer1 (m ((c : Thread nD τ).loc main_arg0))
      (aggX (m ((c : Thread nD τ).loc main_arg0)) (m ((c : Thread nD τ).loc main_arg1)))
      (shapeCast S50000x1 (val_main_v12 (F := Ideal) (m ((c : Thread nD τ).loc main_arg1))) shapeCasts_S50000_S50000x1)
      (m ((c : Thread nD τ).loc main_arg2))
      (shapeCast S1x256 (m ((c : Thread nD τ).loc main_arg3)) shapeCasts_S256_S1x256)
    = val_main_v49 (F := Ideal) (m ((c : Thread nD τ).loc main_arg0)) (m ((c : Thread nD τ).loc main_arg1))
        (m ((c : Thread nD τ).loc main_arg2)) (m ((c : Thread nD τ).loc main_arg3))

/-- THE RESULT ARRAY is the reference's last stage of the arguments. -/
theorem result_ref (c : Dev nD) (hL1 : LayerOneAgrees m c) :
    W5 m ρ c (Proc.devRef .tc main_v59)
      = val_main_v94 (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  rw [result_eq, W3_v43, W2_v42, hL1, Cert.LayerTwoForms.product_v49_eq_v50, aggH_ref]
  exact Cert.LayerTwoForms.combine_eq_ref _ _ _ _ _ _ _ _

/-- THE RUN of the idealized kernel program, read: the result at the reference's last stage, the arguments unchanged. -/
theorem run (hL1 : ∀ c, LayerOneAgrees m c) :
    θ_run defs (onTc (τ := τ) (main (F := Ideal))) ⟨m, fun _ => 0, ρ⟩ (fun r => ∀ c : Dev nD,
      r.2.mem ((c.tc : Thread nD τ).loc main_v59)
        = val_main_v94 (F := Ideal) (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_ref m ρ c (hL1 c)), (h c).2⟩)
    (Cert.KernelIdeal.Result.run_result m ρ)

end Cert.KernelIdeal.Final

end
-- ==== Proof.lean ====
/-
  A two-layer graph convolution on 50000 nodes and 800000 edges: a kernel program of three TensorCore launches among
  host operations against a plain reference, equal over the extended reals when every float input is a real number.

  Both programs compute, per layer, out = Â (X W) + b with Â the adjacency matrix with self-loops, normalised on both
  sides by the inverse square roots of the degrees. The reference multiplies by W first and aggregates the product. The
  kernel's first layer aggregates the node features X over the graph on the host, adds the self-loop term d² · X inside
  its launch and only then multiplies by W (then bias and rectifier): equal to the reference's first layer by
  distributivity and an exchange of two finite sums, valid here because the features, the weights, the edge weights and
  the degrees' inverse square roots are all real numbers (the precondition, and a degree being a positive count). The
  kernel's second layer is the reference's, operation for operation: a launch computing the product block by block, the
  host's neighbour aggregate of it, and a launch combining aggregate, self-loop term and bias.

  The three frames are the generated ones (the reference's frame is its generated run with the result dropped); the
  kernel's idealization rewrites nothing; the algebraic claim puts both runs' results at the reference's last stage of
  the shared arguments.
-/
import proofs.«107366_j5566277616086_2_alg».proof.Defs
import proofs.«107366_j5566277616086_2_alg».proof.Proof.Gen.Kernel
import proofs.«107366_j5566277616086_2_alg».proof.Proof.Gen.Kernel.Skeleton
import proofs.«107366_j5566277616086_2_alg».proof.Proof.Gen.Kernel.Launch
import proofs.«107366_j5566277616086_2_alg».proof.Proof.Gen.Kernel.Points
import proofs.«107366_j5566277616086_2_alg».proof.Proof.Gen.Kernel.Frame
import proofs.«107366_j5566277616086_2_alg».proof.Proof.Gen.KernelIdeal
import proofs.«107366_j5566277616086_2_alg».proof.Proof.Gen.KernelIdeal.Skeleton
import proofs.«107366_j5566277616086_2_alg».proof.Proof.Gen.KernelIdeal.Launch
import proofs.«107366_j5566277616086_2_alg».proof.Proof.Gen.KernelIdeal.Points
import proofs.«107366_j5566277616086_2_alg».proof.Proof.Gen.KernelIdeal.Frame
import proofs.«107366_j5566277616086_2_alg».proof.Proof.Gen.ReferenceIdeal
import proofs.«107366_j5566277616086_2_alg».proof.Proof.Gen.Pre_finite_inputs
import proofs.«107366_j5566277616086_2_alg».proof.Proof.Gen.ReferenceIdeal.Run
import proofs.«107366_j5566277616086_2_alg».proof.Proof.Gen.ReferenceIdeal.Read
import proofs.«107366_j5566277616086_2_alg».proof.Proof.InputsReal
import proofs.«107366_j5566277616086_2_alg».proof.Proof.LayerOneBridge
import proofs.«107366_j5566277616086_2_alg».proof.Proof.KernelResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Under the precondition the two programs' first layers agree on every core's arguments: the node features and the
    first weight matrix are real numbers there. -/
theorem layer_one_agrees (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.Final.LayerOneAgrees m c := by
  obtain ⟨hx0, hx2, -⟩ := Cert.InputsReal.real_of_pre _ _ _ _ _ _ (hpre c)
  exact Cert.LayerOneBridge.layer1_eq_ref _ _ _ _ hx0 hx2 _ _

/-- Both idealized programs end with the reference's last stage of the shared arguments in their result arrays. -/
theorem algebraic : Cert.algebraic_KernelIdeal_ReferenceIdeal := by
  intro m ρ m' ρ' hpre hagree
  refine ⟨_, Cert.KernelIdeal.Final.run m ρ (layer_one_agrees m hpre), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v94_eq, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
